-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v106)) (v1 : (c : Dev Cert.KernelIdeal.nD) → Buf (Elt Ideal) ((c.tc : Thread Cert.KernelIdeal.nD Cert.KernelIdeal.τ).loc Cert.KernelIdeal.main_v107)) (v2 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_v108) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x9 : Shape := ⟨2, ![1048576, 9]⟩
abbrev S1048576x32 : Shape := ⟨2, ![1048576, 32]⟩
abbrev S9x16 : Shape := ⟨2, ![9, 16]⟩
abbrev S16x32 : Shape := ⟨2, ![16, 32]⟩
abbrev S32x9 : Shape := ⟨2, ![32, 9]⟩
abbrev S_ : Shape := ⟨0, ![]⟩

class Facts : Prop where
  bcast_S_S1048576x9 : S_.BroadcastsInDim S1048576x9 (![] : Fin 0 → Fin S1048576x9.rank)
  reducesTo_S1048576x9_S_d0_1 : S1048576x9.ReducesTo [0, 1] S_
  h_S_ : 0 < S_.numel
  bcast_S_S1048576x32 : S_.BroadcastsInDim S1048576x32 (![] : Fin 0 → Fin S1048576x32.rank)
  reducesTo_S1048576x32_S_d0_1 : S1048576x32.ReducesTo [0, 1] S_
  bcast_S_S9x16 : S_.BroadcastsInDim S9x16 (![] : Fin 0 → Fin S9x16.rank)
  reducesTo_S9x16_S_d0_1 : S9x16.ReducesTo [0, 1] S_
  bcast_S_S16x32 : S_.BroadcastsInDim S16x32 (![] : Fin 0 → Fin S16x32.rank)
  reducesTo_S16x32_S_d0_1 : S16x32.ReducesTo [0, 1] S_
  bcast_S_S32x9 : S_.BroadcastsInDim S32x9 (![] : Fin 0 → Fin S32x9.rank)
  reducesTo_S32x9_S_d0_1 : S32x9.ReducesTo [0, 1] S_

variable [Facts]

def fn_part1 {F : FTy → Type} [FloatOps F] (main_arg4 : FVec F S16x32 .f32) (main_arg5 : FVec F S32x9 .f32) (main_v13 : IVec S_ 1) (main_v16 : IVec S9x16 1) : IVec S_ 1 :=
  let main_c_5 : IVec S_ 1 := constantI S_ 1 1#1
  let main_v17 : IVec S_ 1 := (fun x v => Host.reduce IntOp.andi x v reducesTo_S9x16_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32x9 .f32 := Host.absf main_arg5
  let main_cst_8 : FVec F S_ .f32 := constant S_ .f32 0x7F800000#32
  let main_v25 : FVec F S32x9 .f32 := broadcastInDim S32x9 ![] bcast_S_S32x9 main_cst_8
  let main_v26 : IVec S32x9 1 := cmpf .olt main_v24 main_v25
  let main_c_9 : IVec S_ 1 := constantI S_ 1 1#1
  let main_v27 : IVec S_ 1 := (fun x v => Host.reduce IntOp.andi x v reducesTo_S32x9_S_d0_1 h_S_) main_v26 main_c_9
  let main_v28 : IVec S_ 1 := andi main_v23 main_v27
  main_v28

def fn {F : FTy → Type} [FloatOps F] (main_arg0 : FVec F S1048576x9 .f32) (main_arg1 : FVec F S1048576x32 .f32) (main_arg2 : FVec F S1048576x32 .f32) (main_arg3 : FVec F S9x16 .f32) (main_arg4 : FVec F S16x32 .f32) (main_arg5 : FVec F S32x9 .f32) : IVec S_ 1 :=
  let main_v0 : FVec F S1048576x9 .f32 := Host.absf main_arg0
  let main_cst : FVec F S_ .f32 := constant S_ .f32 0x7F800000#32
  let main_v1 : FVec F S1048576x9 .f32 := broadcastInDim S1048576x9 ![] bcast_S_S1048576x9 main_cst
  let main_v2 : IVec S1048576x9 1 := cmpf .olt main_v0 main_v1
  let main_c : IVec S_ 1 := constantI S_ 1 1#1
  let main_v3 : IVec S_ 1 := (fun x v => Host.reduce IntOp.andi x v reducesTo_S1048576x9_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  let main_v9 : FVec F S1048576x32 .f32 := Host.absf main_arg2
  let main_cst_2 : FVec F S_ .f32 := constant S_ .f32 0x7F800000#32
  let main_v10 : FVec F S1048576x32 .f32 := broadcastInDim S1048576x32 ![] bcast_S_S1048576x32 main_cst_2
  let main_v11 : IVec S1048576x32 1 := cmpf .olt main_v9 main_v10
  let main_c_3 : IVec S_ 1 := constantI S_ 1 1#1
  let main_v12 : IVec S_ 1 := (fun x v => Host.reduce IntOp.andi x v reducesTo_S1048576x32_S_d0_1 h_S_) main_v11 main_c_3
  let main_v13 : IVec S_ 1 := andi main_v8 main_v12
  let main_v14 : FVec F S9x16 .f32 := Host.absf main_arg3
  let main_cst_4 : FVec F S_ .f32 := constant S_ .f32 0x7F800000#32
  let main_v15 : FVec F S9x16 .f32 := broadcastInDim S9x16 ![] bcast_S_S9x16 main_cst_4
  let main_v16 : IVec S9x16 1 := cmpf .olt main_v14 main_v15
  fn_part1 (F := F) main_arg4 main_arg5 main_v13 main_v16
-- ==== Kernel.lean ====
abbrev S1048576x9 : Shape := ⟨2, ![1048576, 9]⟩
abbrev S1048576x32 : Shape := ⟨2, ![1048576, 32]⟩
abbrev S9x16 : Shape := ⟨2, ![9, 16]⟩
abbrev S16x32 : Shape := ⟨2, ![16, 32]⟩
abbrev S32x9 : Shape := ⟨2, ![32, 9]⟩
abbrev S131072x72 : Shape := ⟨2, ![131072, 72]⟩
abbrev S131072x256 : Shape := ⟨2, ![131072, 256]⟩
abbrev S_ : Shape := ⟨0, ![]⟩
abbrev S72x128 : Shape := ⟨2, ![72, 128]⟩
abbrev S1 : Shape := ⟨1, ![1]⟩
abbrev S2 : Shape := ⟨1, ![2]⟩
abbrev S128x256 : Shape := ⟨2, ![128, 256]⟩
abbrev S256x72 : Shape := ⟨2, ![256, 72]⟩
abbrev S2048x72 : Shape := ⟨2, ![2048, 72]⟩
abbrev S2048x256 : Shape := ⟨2, ![2048, 256]⟩
abbrev S2048x128 : Shape := ⟨2, ![2048, 128]⟩

abbrev nBuf : Space → Nat
  | .hbm => 168
  | .vmem => 15
  | .smem => 0
  | _ => 0

abbrev hbmTy0_0 (i : Nat) : BufTy := match i % 128 with
  | 0 => ⟨S1048576x9, .f32⟩
  | 1 => ⟨S1048576x32, .f32⟩
  | 2 => ⟨S1048576x32, .f32⟩
  | 3 => ⟨S9x16, .f32⟩
  | 4 => ⟨S16x32, .f32⟩
  | 5 => ⟨S32x9, .f32⟩
  | 6 => ⟨S131072x72, .f32⟩
  | 7 => ⟨S131072x256, .f32⟩
  | 8 => ⟨S131072x256, .f32⟩
  | 9 => ⟨S_, .f32⟩
  | 10 => ⟨S72x128, .f32⟩
  | 11 => ⟨S_, .i32⟩
  | 12 => ⟨S1, .i32⟩
  | 13 => ⟨S_, .i32⟩
  | 14 => ⟨S1, .i32⟩
  | 15 => ⟨S2, .i32⟩
  | 16 => ⟨S72x128, .f32⟩
  | 17 => ⟨S_, .i32⟩
  | 18 => ⟨S1, .i32⟩
  | 19 => ⟨S_, .i32⟩
  | 20 => ⟨S1, .i32⟩
  | 21 => ⟨S2, .i32⟩
  | 22 => ⟨S72x128, .f32⟩
  | 23 => ⟨S_, .i32⟩
  | 24 => ⟨S1, .i32⟩
  | 25 => ⟨S_, .i32⟩
  | 26 => ⟨S1, .i32⟩
  | 27 => ⟨S2, .i32⟩
  | 28 => ⟨S72x128, .f32⟩
  | 29 => ⟨S_, .i32⟩
  | 30 => ⟨S1, .i32⟩
  | 31 => ⟨S_, .i32⟩
  | 32 => ⟨S1, .i32⟩
  | 33 => ⟨S2, .i32⟩
  | 34 => ⟨S72x128, .f32⟩
  | 35 => ⟨S_, .i32⟩
  | 36 => ⟨S1, .i32⟩
  | 37 => ⟨S_, .i32⟩
  | 38 => ⟨S1, .i32⟩
  | 39 => ⟨S2, .i32⟩
  | 40 => ⟨S72x128, .f32⟩
  | 41 => ⟨S_, .i32⟩
  | 42 => ⟨S1, .i32⟩
  | 43 => ⟨S_, .i32⟩
  | 44 => ⟨S1, .i32⟩
  | 45 => ⟨S2, .i32⟩
  | 46 => ⟨S72x128, .f32⟩
  | 47 => ⟨S_, .i32⟩
  | 48 => ⟨S1, .i32⟩
  | 49 => ⟨S_, .i32⟩
  | 50 => ⟨S1, .i32⟩
  | 51 => ⟨S2, .i32⟩
  | 52 => ⟨S72x128, .f32⟩
  | 53 => ⟨S_, .i32⟩
  | 54 => ⟨S1, .i32⟩
  | 55 => ⟨S_, .i32⟩
  | 56 => ⟨S1, .i32⟩
  | 57 => ⟨S2, .i32⟩
  | 58 => ⟨S72x128, .f32⟩
  | 59 => ⟨S72x128, .bf16⟩
  | 60 => ⟨S_, .f32⟩
  | 61 => ⟨S128x256, .f32⟩
  | 62 => ⟨S_, .i32⟩
  | 63 => ⟨S1, .i32⟩
  | 64 => ⟨S_, .i32⟩
  | 65 => ⟨S1, .i32⟩
  | 66 => ⟨S2, .i32⟩
  | 67 => ⟨S128x256, .f32⟩
  | 68 => ⟨S_, .i32⟩
  | 69 => ⟨S1, .i32⟩
  | 70 => ⟨S_, .i32⟩
  | 71 => ⟨S1, .i32⟩
  | 72 => ⟨S2, .i32⟩
  | 73 => ⟨S128x256, .f32⟩
  | 74 => ⟨S_, .i32⟩
  | 75 => ⟨S1, .i32⟩
  | 76 => ⟨S_, .i32⟩
  | 77 => ⟨S1, .i32⟩
  | 78 => ⟨S2, .i32⟩
  | 79 => ⟨S128x256, .f32⟩
  | 80 => ⟨S_, .i32⟩
  | 81 => ⟨S1, .i32⟩
  | 82 => ⟨S_, .i32⟩
  | 83 => ⟨S1, .i32⟩
  | 84 => ⟨S2, .i32⟩
  | 85 => ⟨S128x256, .f32⟩
  | 86 => ⟨S_, .i32⟩
  | 87 => ⟨S1, .i32⟩
  | 88 => ⟨S_, .i32⟩
  | 89 => ⟨S1, .i32⟩
  | 90 => ⟨S2, .i32⟩
  | 91 => ⟨S128x256, .f32⟩
  | 92 => ⟨S_, .i32⟩
  | 93 => ⟨S1, .i32⟩
  | 94 => ⟨S_, .i32⟩
  | 95 => ⟨S1, .i32⟩
  | 96 => ⟨S2, .i32⟩
  | 97 => ⟨S128x256, .f32⟩
  | 98 => ⟨S_, .i32⟩
  | 99 => ⟨S1, .i32⟩
  | 100 => ⟨S_, .i32⟩
  | 101 => ⟨S1, .i32⟩
  | 102 => ⟨S2, .i32⟩
  | 103 => ⟨S128x256, .f32⟩
  | 104 => ⟨S_, .i32⟩
  | 105 => ⟨S1, .i32⟩
  | 106 => ⟨S_, .i32⟩
  | 107 => ⟨S1, .i32⟩
  | 108 => ⟨S2, .i32⟩
  | 109 => ⟨S128x256, .f32⟩
  | 110 => ⟨S128x256, .bf16⟩
  | 111 => ⟨S_, .f32⟩
  | 112 => ⟨S256x72, .f32⟩
  | 113 => ⟨S_, .i32⟩
  | 114 => ⟨S1, .i32⟩
  | 115 => ⟨S_, .i32⟩
  | 116 => ⟨S1, .i32⟩
  | 117 => ⟨S2, .i32⟩
  | 118 => ⟨S256x72, .f32⟩
  | 119 => ⟨S_, .i32⟩
  | 120 => ⟨S1, .i32⟩
  | 121 => ⟨S_, .i32⟩
  | 122 => ⟨S1, .i32⟩
  | 123 => ⟨S2, .i32⟩
  | 124 => ⟨S256x72, .f32⟩
  | 125 => ⟨S_, .i32⟩
  | 126 => ⟨S1, .i32⟩
  | 127 => ⟨S_, .i32⟩
  | _ => ⟨S1048576x9, .f32⟩

abbrev hbmTy0_1 (i : Nat) : BufTy := match i % 128 with
  | 0 => ⟨S1, .i32⟩
  | 1 => ⟨S2, .i32⟩
  | 2 => ⟨S256x72, .f32⟩
  | 3 => ⟨S_, .i32⟩
  | 4 => ⟨S1, .i32⟩
  | 5 => ⟨S_, .i32⟩
  | 6 => ⟨S1, .i32⟩
  | 7 => ⟨S2, .i32⟩
  | 8 => ⟨S256x72, .f32⟩
  | 9 => ⟨S_, .i32⟩
  | 10 => ⟨S1, .i32⟩
  | 11 => ⟨S_, .i32⟩
  | 12 => ⟨S1, .i32⟩
  | 13 => ⟨S2, .i32⟩
  | 14 => ⟨S256x72, .f32⟩
  | 15 => ⟨S_, .i32⟩
  | 16 => ⟨S1, .i32⟩
  | 17 => ⟨S_, .i32⟩
  | 18 => ⟨S1, .i32⟩
  | 19 => ⟨S2, .i32⟩
  | 20 => ⟨S256x72, .f32⟩
  | 21 => ⟨S_, .i32⟩
  | 22 => ⟨S1, .i32⟩
  | 23 => ⟨S_, .i32⟩
  | 24 => ⟨S1, .i32⟩
  | 25 => ⟨S2, .i32⟩
  | 26 => ⟨S256x72, .f32⟩
  | 27 => ⟨S_, .i32⟩
  | 28 => ⟨S1, .i32⟩
  | 29 => ⟨S_, .i32⟩
  | 30 => ⟨S1, .i32⟩
  | 31 => ⟨S2, .i32⟩
  | 32 => ⟨S256x72, .f32⟩
  | 33 => ⟨S256x72, .bf16⟩
  | 34 => ⟨S131072x72, .f32⟩
  | 35 => ⟨S131072x256, .f32⟩
  | 36 => ⟨S131072x256, .f32⟩
  | 37 => ⟨S1048576x9, .f32⟩
  | 38 => ⟨S1048576x32, .f32⟩
  | 39 => ⟨S1048576x32, .f32⟩
  | _ => ⟨S1048576x9, .f32⟩

abbrev hbmTy (i : Nat) : BufTy := match i / 128 with
  | 0 => hbmTy0_0 i
  | 1 => hbmTy0_1 i
  | _ => ⟨S1048576x9, .f32⟩

abbrev bufTy : (tb : Table) → Fin (tcTables nBuf tb) → BufTy
  | .hbm, ⟨i, _⟩ => hbmTy i
  | .local _ .vmem, ⟨0, _⟩ => ⟨S2048x72, .f32⟩
  | .local _ .vmem, ⟨1, _⟩ => ⟨S2048x72, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S72x128, .bf16⟩
  | .local _ .vmem, ⟨7, _⟩ => ⟨S128x256, .bf16⟩
  | .local _ .vmem, ⟨8, _⟩ => ⟨S256x72, .bf16⟩
  | .local _ .vmem, ⟨9, _⟩ => ⟨S2048x72, .f32⟩
  | .local _ .vmem, ⟨10, _⟩ => ⟨S2048x72, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | _, _ => ⟨S1048576x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_c_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_c_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_c_10 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_11 : Ref sig .tc := ⟨.hbm, 47, rfl⟩
abbrev main_v28 : Ref sig .tc := ⟨.hbm, 48, rfl⟩
abbrev main_c_12 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_13 : Ref sig .tc := ⟨.hbm, 53, rfl⟩
abbrev main_v32 : Ref sig .tc := ⟨.hbm, 54, rfl⟩
abbrev main_c_14 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_15 : Ref sig .tc := ⟨.hbm, 60, rfl⟩
abbrev main_v37 : Ref sig .tc := ⟨.hbm, 61, rfl⟩
abbrev main_c_16 : Ref sig .tc := ⟨.hbm, 62, rfl⟩
abbrev main_v38 : Ref sig .tc := ⟨.hbm, 63, rfl⟩
abbrev main_c_17 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_18 : Ref sig .tc := ⟨.hbm, 68, rfl⟩
abbrev main_v42 : Ref sig .tc := ⟨.hbm, 69, rfl⟩
abbrev main_c_19 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_20 : Ref sig .tc := ⟨.hbm, 74, rfl⟩
abbrev main_v46 : Ref sig .tc := ⟨.hbm, 75, rfl⟩
abbrev main_c_21 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_22 : Ref sig .tc := ⟨.hbm, 80, rfl⟩
abbrev main_v50 : Ref sig .tc := ⟨.hbm, 81, rfl⟩
abbrev main_c_23 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_24 : Ref sig .tc := ⟨.hbm, 86, rfl⟩
abbrev main_v54 : Ref sig .tc := ⟨.hbm, 87, rfl⟩
abbrev main_c_25 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_26 : Ref sig .tc := ⟨.hbm, 92, rfl⟩
abbrev main_v58 : Ref sig .tc := ⟨.hbm, 93, rfl⟩
abbrev main_c_27 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_28 : Ref sig .tc := ⟨.hbm, 98, rfl⟩
abbrev main_v62 : Ref sig .tc := ⟨.hbm, 99, rfl⟩
abbrev main_c_29 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_30 : Ref sig .tc := ⟨.hbm, 104, rfl⟩
abbrev main_v66 : Ref sig .tc := ⟨.hbm, 105, rfl⟩
abbrev main_c_31 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_32 : Ref sig .tc := ⟨.hbm, 111, rfl⟩
abbrev main_v71 : Ref sig .tc := ⟨.hbm, 112, rfl⟩
abbrev main_c_33 : Ref sig .tc := ⟨.hbm, 113, rfl⟩
abbrev main_v72 : Ref sig .tc := ⟨.hbm, 114, rfl⟩
abbrev main_c_34 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_35 : Ref sig .tc := ⟨.hbm, 119, rfl⟩
abbrev main_v76 : Ref sig .tc := ⟨.hbm, 120, rfl⟩
abbrev main_c_36 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_37 : Ref sig .tc := ⟨.hbm, 125, rfl⟩
abbrev main_v80 : Ref sig .tc := ⟨.hbm, 126, rfl⟩
abbrev main_c_38 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_39 : Ref sig .tc := ⟨.hbm, 131, rfl⟩
abbrev main_v84 : Ref sig .tc := ⟨.hbm, 132, rfl⟩
abbrev main_c_40 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_41 : Ref sig .tc := ⟨.hbm, 137, rfl⟩
abbrev main_v88 : Ref sig .tc := ⟨.hbm, 138, rfl⟩
abbrev main_c_42 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_c_43 : Ref sig .tc := ⟨.hbm, 143, rfl⟩
abbrev main_v92 : Ref sig .tc := ⟨.hbm, 144, rfl⟩
abbrev main_c_44 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_45 : Ref sig .tc := ⟨.hbm, 149, rfl⟩
abbrev main_v96 : Ref sig .tc := ⟨.hbm, 150, rfl⟩
abbrev main_c_46 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_c_47 : Ref sig .tc := ⟨.hbm, 155, rfl⟩
abbrev main_v100 : Ref sig .tc := ⟨.hbm, 156, rfl⟩
abbrev main_c_48 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105_0 : Ref sig .tc := ⟨.hbm, 162, rfl⟩
abbrev main_v105_1 : Ref sig .tc := ⟨.hbm, 163, rfl⟩
abbrev main_v105_2 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S72x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x72 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x72 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1048576x9_S131072x72 : S1048576x9.ShapeCasts S131072x72
  shapeCasts_S1048576x32_S131072x256 : S1048576x32.ShapeCasts S131072x256
  bcast_S_S72x128 : S_.BroadcastsInDim S72x128 (![] : Fin 0 → Fin S72x128.rank)
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  bcast_S_S128x256 : S_.BroadcastsInDim S128x256 (![] : Fin 0 → Fin S128x256.rank)
  bcast_S_S256x72 : S_.BroadcastsInDim S256x72 (![] : Fin 0 → Fin S256x72.rank)
  inb_S2048x72_S2048x72_0_0 : ∀ a, (![0, 0] : Fin 2 → Nat) a + S2048x72.size a ≤ S2048x72.size a
  h_S2048x72 : 0 < S2048x72.numel
  shapeCasts_S2048x72_S2048x72 : S2048x72.ShapeCasts S2048x72
  inb_S72x128_S72x128_0_0 : ∀ a, (![0, 0] : Fin 2 → Nat) a + S72x128.size a ≤ S72x128.size a
  h_S72x128 : 0 < S72x128.numel
  shapeCasts_S72x128_S72x128 : S72x128.ShapeCasts S72x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x72_S256x72_0_0 : ∀ a, (![0, 0] : Fin 2 → Nat) a + S256x72.size a ≤ S256x72.size a
  h_S256x72 : 0 < S256x72.numel
  shapeCasts_S256x72_S256x72 : S256x72.ShapeCasts S256x72
  shapeCasts_S131072x72_S1048576x9 : S131072x72.ShapeCasts S1048576x9
  shapeCasts_S131072x256_S1048576x32 : S131072x256.ShapeCasts S1048576x32
  scatter_S72x128_S2_S9x16_01_n_01_0_wf : ScatterDims.WF S72x128 S2 S9x16 [0, 1] [] [0, 1] 0
  scatter_S128x256_S2_S16x32_01_n_01_0_wf : ScatterDims.WF S128x256 S2 S16x32 [0, 1] [] [0, 1] 0
  scatter_S256x72_S2_S32x9_01_n_01_0_wf : ScatterDims.WF S256x72 S2 S32x9 [0, 1] [] [0, 1] 0
  dot_S2048x72_S72x128_S2048x128_1_0_0_1_n_n_wf : DotDims.WF S2048x72 S72x128 S2048x128 [1] [0] [0] [1] [] []
  dot_S2048x128_S128x256_S2048x256_1_0_0_1_n_n_wf : DotDims.WF S2048x128 S128x256 S2048x256 [1] [0] [0] [1] [] []
  dot_S2048x256_S256x72_S2048x72_1_0_0_1_n_n_wf : DotDims.WF S2048x256 S256x72 S2048x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x72.size a ≤ S131072x72.size a
  hwx0_0 : ∀ i : grid0.Coords, EltTy.bits .f32 = 32 ∨ (Rect.block (s := S131072x72) S2048x72.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S131072x256.size a
  hwx0_2 : ∀ i : grid0.Coords, EltTy.bits .f32 = 32 ∨ (Rect.block (s := S131072x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S72x128.size a ≤ S72x128.size a
  hwx0_3 : ∀ i : grid0.Coords, EltTy.bits .bf16 = 32 ∨ (Rect.block (s := S72x128) S72x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x72.size a ≤ S256x72.size a
  hwx0_5 : ∀ i : grid0.Coords, EltTy.bits .bf16 = 32 ∨ (Rect.block (s := S256x72) S256x72.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x72.size a ≤ S131072x72.size a
  hwx0_6 : ∀ i : grid0.Coords, EltTy.bits .f32 = 32 ∨ (Rect.block (s := S131072x72) S2048x72.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S131072x256.size a
  hwx0_7 : ∀ i : grid0.Coords, EltTy.bits .f32 = 32 ∨ (Rect.block (s := S131072x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S131072x256.size a
  hwx0_8 : ∀ i : grid0.Coords, EltTy.bits .f32 = 32 ∨ (Rect.block (s := S131072x256) S2048x256.size (cc0_transform_8 i) (hinb0_8 i)).WholeWords (EltTy.packing .f32)

variable [Facts₀]

def scatter_S72x128_S2_S9x16_01_n_01_0 : ScatterDims S72x128 S2 S9x16 where
  updateWindowDims := [0, 1]
  insertedWindowDims := []
  scatterDimsToOperandDims := [0, 1]
  indexVectorDim := 0
  wf := scatter_S72x128_S2_S9x16_01_n_01_0_wf
def scatter_S128x256_S2_S16x32_01_n_01_0 : ScatterDims S128x256 S2 S16x32 where
  updateWindowDims := [0, 1]
  insertedWindowDims := []
  scatterDimsToOperandDims := [0, 1]
  indexVectorDim := 0
  wf := scatter_S128x256_S2_S16x32_01_n_01_0_wf
def scatter_S256x72_S2_S32x9_01_n_01_0 : ScatterDims S256x72 S2 S32x9 where
  updateWindowDims := [0, 1]
  insertedWindowDims := []
  scatterDimsToOperandDims := [0, 1]
  indexVectorDim := 0
  wf := scatter_S256x72_S2_S32x9_01_n_01_0_wf
def dot_S2048x72_S72x128_S2048x128_1_0_0_1_n_n : DotDims S2048x72 S72x128 S2048x128 where
  lhsContracting := [1]
  rhsContracting := [0]
  lhsNonContracting := [0]
  rhsNonContracting := [1]
  lhsBatch := []
  rhsBatch := []
  wf := dot_S2048x72_S72x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x72_S2048x72_1_0_0_1_n_n : DotDims S2048x256 S256x72 S2048x72 where
  lhsContracting := [1]
  rhsContracting := [0]
  lhsNonContracting := [0]
  rhsNonContracting := [1]
  lhsBatch := []
  rhsBatch := []
  wf := dot_S2048x256_S256x72_S2048x72_1_0_0_1_n_n_wf

abbrev win0_0 : Pipeline.Window sig grid0 :=
  Pipeline.Window.ofSpec (Memref.whole main_v0) S2048x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S72x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v70) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S256x72.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v105_0) S2048x72.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v105_1) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v105_2) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1048576x9 : Shape := ⟨2, ![1048576, 9]⟩
abbrev S1048576x32 : Shape := ⟨2, ![1048576, 32]⟩
abbrev S9x16 : Shape := ⟨2, ![9, 16]⟩
abbrev S16x32 : Shape := ⟨2, ![16, 32]⟩
abbrev S32x9 : Shape := ⟨2, ![32, 9]⟩
abbrev S1048576x16 : Shape := ⟨2, ![1048576, 16]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S1048576x9, .f32⟩
  | .hbm, ⟨1, _⟩ => ⟨S1048576x32, .f32⟩
  | .hbm, ⟨2, _⟩ => ⟨S1048576x32, .f32⟩
  | .hbm, ⟨3, _⟩ => ⟨S9x16, .f32⟩
  | .hbm, ⟨4, _⟩ => ⟨S16x32, .f32⟩
  | .hbm, ⟨5, _⟩ => ⟨S32x9, .f32⟩
  | .hbm, ⟨6, _⟩ => ⟨S1048576x16, .f32⟩
  | .hbm, ⟨7, _⟩ => ⟨S1048576x16, .f32⟩
  | .hbm, ⟨8, _⟩ => ⟨S1048576x32, .f32⟩
  | .hbm, ⟨9, _⟩ => ⟨S1048576x32, .f32⟩
  | .hbm, ⟨10, _⟩ => ⟨S1048576x32, .f32⟩
  | .hbm, ⟨11, _⟩ => ⟨S1048576x32, .f32⟩
  | .hbm, ⟨12, _⟩ => ⟨S_, .f32⟩
  | .hbm, ⟨13, _⟩ => ⟨S1048576x32, .f32⟩
  | .hbm, ⟨14, _⟩ => ⟨S1048576x32, .f32⟩
  | .hbm, ⟨15, _⟩ => ⟨S_, .f32⟩
  | .hbm, ⟨16, _⟩ => ⟨S1048576x32, .f32⟩
  | .hbm, ⟨17, _⟩ => ⟨S1048576x32, .f32⟩
  | .hbm, ⟨18, _⟩ => ⟨S1048576x32, .f32⟩
  | .hbm, ⟨19, _⟩ => ⟨S1048576x32, .f32⟩
  | .hbm, ⟨20, _⟩ => ⟨S1048576x32, .f32⟩
  | .hbm, ⟨21, _⟩ => ⟨S_, .f32⟩
  | .hbm, ⟨22, _⟩ => ⟨S1048576x32, .f32⟩
  | .hbm, ⟨23, _⟩ => ⟨S1048576x32, .f32⟩
  | .hbm, ⟨24, _⟩ => ⟨S1048576x32, .f32⟩
  | .hbm, ⟨25, _⟩ => ⟨S1048576x32, .f32⟩
  | .hbm, ⟨26, _⟩ => ⟨S1048576x32, .f32⟩
  | .hbm, ⟨27, _⟩ => ⟨S1048576x9, .f32⟩
  | _, _ => ⟨S1048576x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S1048576x32 : S_.BroadcastsInDim S1048576x32 (![] : Fin 0 → Fin S1048576x32.rank)
  dot_S1048576x9_S9x16_S1048576x16_1_0_0_1_n_n_wf : DotDims.WF S1048576x9 S9x16 S1048576x16 [1] [0] [0] [1] [] []
  dot_S1048576x16_S16x32_S1048576x32_1_0_0_1_n_n_wf : DotDims.WF S1048576x16 S16x32 S1048576x32 [1] [0] [0] [1] [] []
  dot_S1048576x32_S32x9_S1048576x9_1_0_0_1_n_n_wf : DotDims.WF S1048576x32 S32x9 S1048576x9 [1] [0] [0] [1] [] []

variable [Facts₀]

def dot_S1048576x9_S9x16_S1048576x16_1_0_0_1_n_n : DotDims S1048576x9 S9x16 S1048576x16 where
  lhsContracting := [1]
  rhsContracting := [0]
  lhsNonContracting := [0]
  rhsNonContracting := [1]
  lhsBatch := []
  rhsBatch := []
  wf := dot_S1048576x9_S9x16_S1048576x16_1_0_0_1_n_n_wf
def dot_S1048576x16_S16x32_S1048576x32_1_0_0_1_n_n : DotDims S1048576x16 S16x32 S1048576x32 where
  lhsContracting := [1]
  rhsContracting := [0]
  lhsNonContracting := [0]
  rhsNonContracting := [1]
  lhsBatch := []
  rhsBatch := []
  wf := dot_S1048576x16_S16x32_S1048576x32_1_0_0_1_n_n_wf
def dot_S1048576x32_S32x9_S1048576x9_1_0_0_1_n_n : DotDims S1048576x32 S32x9 S1048576x9 where
  lhsContracting := [1]
  rhsContracting := [0]
  lhsNonContracting := [0]
  rhsNonContracting := [1]
  lhsBatch := []
  rhsBatch := []
  wf := dot_S1048576x32_S32x9_S1048576x9_1_0_0_1_n_n_wf

class Facts : Prop extends Facts₀ where

variable [Facts]
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.LibSetScatter.lean ====
/-
  A scatter whose body keeps the update (`x.at[…].set(v)`), read at an element; and the window write at the origin.

  The host's scatter is a left fold over the update's elements: each element that lands inside the operand replaces the
  operand's element there, and one that lands outside is dropped. When at most one update lands on an element the order of
  the fold does not matter there: the element ends at that update's value, and an element no update lands on keeps the
  operand's value (`scatter_set_lands`, `scatter_set_untouched`). The second half is the case that pads an array: an
  `[n, d]` update written as ONE window at the origin of an `[N, D]` operand (both update axes window axes, a single start
  index read as zero). Element `(a, b)` of the update lands on element `(a, b)` of the operand, so the result is the update
  inside the window and the operand outside it. Nothing here mentions a program.
-/
import Idealize.ShloMosaic.PureOps.Ideal
import Idealize.ShloMosaic.Lib.ValueIdx
import proofs.«123711_j62886911148706_2_alg».proof.Proof.LibScatterRows

noncomputable section

namespace Cert.Lib.SetScatter

open Idealize.ShloMosaic Idealize.ShloMosaic.ValueIdx

/-! ## A fold of steps each of which rewrites one place -/

section Fold
variable {ι β α : Type}

/-- A place no step of the list lands on keeps its value. -/
theorem foldl_untouched (step : (ι → α) → β → ι → α) (g : β → Option ι) (i : ι)
    (hother : ∀ r j, g j ≠ some i → step r j i = r i) :
    ∀ (l : List β) (r : ι → α), (∀ j ∈ l, g j ≠ some i) → l.foldl step r i = r i
  | [], _, _ => rfl
  | j :: l, r, h => by
    rw [List.foldl_cons, foldl_untouched step g i hother l (step r j) (fun j' hj' => h j' (List.mem_cons_of_mem _ hj'))]
    exact hother r j (h j (List.mem_cons.mpr (Or.inl rfl)))

/-- A place some step of the list lands on, all the steps that land on it writing one value, ends at that value. -/
theorem foldl_lands (step : (ι → α) → β → ι → α) (g : β → Option ι) (upd : β → α) (i : ι)
    (hland : ∀ r j, g j = some i → step r j i = upd j)
    (hother : ∀ r j, g j ≠ some i → step r j i = r i) :
    ∀ (l : List β) (r : ι → α) (j0 : β), j0 ∈ l → g j0 = some i → (∀ j ∈ l, g j = some i → upd j = upd j0) →
      l.foldl step r i = upd j0
  | [], _, _, h, _, _ => absurd h List.not_mem_nil
  | j :: l, r, j0, hmem, hj0, hsame => by
    rw [List.foldl_cons]
    by_cases hex : ∃ j1 ∈ l, g j1 = some i
    · obtain ⟨j1, hj1, hg1⟩ := hex
      have e1 : upd j1 = upd j0 := hsame j1 (List.mem_cons_of_mem _ hj1) hg1
      rw [← e1]
      exact foldl_lands step g upd i hland hother l (step r j) j1 hj1 hg1
        (fun j' hj' hg' => (hsame j' (List.mem_cons_of_mem _ hj') hg').trans e1.symm)
    · have hnone : ∀ j' ∈ l, g j' ≠ some i := fun j' hj' hg' => hex ⟨j', hj', hg'⟩
      rw [foldl_untouched step g i hother l (step r j) hnone]
      have hj : j0 = j := by
        rcases List.mem_cons.mp hmem with h | h
        · exact h
        · exact absurd hj0 (hnone j0 h)
      rw [hj] at hj0 ⊢
      exact hland r j hj0

end Fold

/-! ## The scatter that keeps the update -/

section Scatter
variable {s si u : Shape} {α : Type} {w : Nat}

/-- One step of the fold: the update at row-major position `n` replaces the element it lands on. -/
def setStep (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (setStep d idx upd) x := rfl

theorem setStep_lands (d : ScatterDims s si u) (idx : IVec si w) (upd : u.Idx → α) (i : s.Idx) (r : s.Idx → α)
    (n : Fin u.numel) (h : d.resultIdx? (u.rowMajor.symm n) idx = some i) :
    setStep d idx upd r n i = upd (u.rowMajor.symm n) := by
  unfold setStep
  rw [h]
  exact if_pos rfl

theorem setStep_other (d : ScatterDims s si u) (idx : IVec si w) (upd : u.Idx → α) (i : s.Idx) (r : s.Idx → α)
    (n : Fin u.numel) (h : d.resultIdx? (u.rowMajor.symm n) idx ≠ some i) :
    setStep d idx upd r n i = r i := by
  unfold setStep
  cases h' : d.resultIdx? (u.rowMajor.symm n) idx with
  | none => rfl
  | some i' =>
    have hne : i ≠ i' := fun e => h (by rw [h', e])
    exact if_neg hne

/-- An element exactly one update lands on ends at that update. -/
theorem scatter_set_lands (d : ScatterDims s si u) (x : s.Idx → α) (idx : IVec si w) (upd : u.Idx → α)
    (i : s.Idx) (j0 : u.Idx) (h0 : d.resultIdx? j0 idx = some i) (huniq : ∀ j, d.resultIdx? j idx = some i → j = j0) :
    Host.scatter d (fun _ b => b) x idx upd i = upd j0 := by
  rw [scatter_eq_foldl]
  have key := foldl_lands (setStep d idx upd) (fun n => d.resultIdx? (u.rowMajor.symm n) idx)
    (fun n => upd (u.rowMajor.symm n)) i
    (fun r n h => setStep_lands d idx upd i r n h) (fun r n h => setStep_other d idx upd i r n h)
    (List.finRange u.numel) x (u.rowMajor j0) (List.mem_finRange _)
    (by show d.resultIdx? (u.rowMajor.symm (u.rowMajor j0)) idx = some i; rw [Equiv.symm_apply_apply]; exact h0)
    (fun n _ hn => by
      show upd (u.rowMajor.symm n) = upd (u.rowMajor.symm (u.rowMajor j0))
      rw [Equiv.symm_apply_apply, huniq _ hn])
  rw [key]
  show upd (u.rowMajor.symm (u.rowMajor j0)) = upd j0
  rw [Equiv.symm_apply_apply]

/-- An element no update lands on keeps the operand's value. -/
theorem scatter_set_untouched (d : ScatterDims s si u) (x : s.Idx → α) (idx : IVec si w) (upd : u.Idx → α)
    (i : s.Idx) (hnone : ∀ j, d.resultIdx? j idx ≠ some i) :
    Host.scatter d (fun _ b => b) x idx upd i = x i := by
  rw [scatter_eq_foldl]
  exact foldl_untouched (setStep d idx upd) (fun n => d.resultIdx? (u.rowMajor.symm n) idx) i
    (fun r n h => setStep_other d idx upd i r n h) (List.finRange u.numel) x (fun n _ => hnone _)

end Scatter

/-! ## One window written at the origin of a matrix -/

section Window
variable {N D n d w : Nat} {α : Type} (sd : Fin 2)

/-- The dimension numbers of an `[n, d]` window written into an `[N, D]` matrix at ONE start index (a vector of one
    entry, naming operand axis `sd`): both update axes are window axes. -/
abbrev windowDims
    (wf : ScatterDims.WF (⟨2, ![N, D]⟩ : Shape) ⟨1, ![1]⟩ ⟨2, ![n, d]⟩ [0, 1] [] [sd] 0) :
    ScatterDims (⟨2, ![N, D]⟩ : Shape) ⟨1, ![1]⟩ ⟨2, ![n, d]⟩ :=
  ⟨[0, 1], [], [sd], 0, wf⟩

variable (wf : ScatterDims.WF (⟨2, ![N, D]⟩ : Shape) ⟨1, ![1]⟩ ⟨2, ![n, d]⟩ [0, 1] [] [sd] 0)

/-- With the start index read as zero the window starts at the origin on every axis. -/
theorem start_zero (idx : IVec ⟨1, ![1]⟩ w) (hidx : ∀ k, (idx k).toInt = 0) (j : (⟨2, ![n, d]⟩ : Shape).Idx) (a : Fin 2) :
    (windowDims sd wf).start j idx a = 0 := by
  unfold ScatterDims.start
  split
  · exact hidx _
  · rfl

/-- On the row axis the window coordinate of update `(a, b)` is `a`. -/
theorem window_row (j : (⟨2, ![n, d]⟩ : Shape).Idx) : (windowDims sd wf).window j 0 = (j 0).val := by
  unfold ScatterDims.window
  refine (dif_pos (show (0 : Fin 2) ∈ (List.finRange 2).filter (· ∉ ([] : List (Fin 2))) by decide)).trans ?_
  rfl

/-- On the column axis the window coordinate of update `(a, b)` is `b`. -/
theorem window_col (j : (⟨2, ![n, d]⟩ : Shape).Idx) : (windowDims sd wf).window j 1 = (j 1).val := by
  unfold ScatterDims.window
  refine (dif_pos (show (1 : Fin 2) ∈ (List.finRange 2).filter (· ∉ ([] : List (Fin 2))) by decide)).trans ?_
  rfl

/-- Update `(a, b)` lands on operand element `(a, b)`. -/
theorem lands_iff (idx : IVec ⟨1, ![1]⟩ w) (hidx : ∀ k, (idx k).toInt = 0) (j : (⟨2, ![n, d]⟩ : Shape).Idx)
    (i : (⟨2, ![N, D]⟩ : Shape).Idx) :
    (windowDims sd wf).resultIdx? j idx = some i ↔ (j 0).val = (i 0).val ∧ (j 1).val = (i 1).val := by
  rw [ScatterRows.resultIdx_eq_some_iff]
  constructor
  · intro h
    have h0 := h 0
    have h1 := h 1
    rw [start_zero sd wf idx hidx, window_row] at h0
    rw [start_zero sd wf idx hidx, window_col] at h1
    exact ⟨by omega, by omega⟩
  · rintro ⟨h0, h1⟩ a
    match a with
    | ⟨0, _⟩ =>
      show (windowDims sd wf).start j idx 0 + (((windowDims sd wf).window j 0 : ℕ) : ℤ) = ((i 0).val : ℤ)
      rw [start_zero sd wf idx hidx, window_row]
      omega
    | ⟨1, _⟩ =>
      show (windowDims sd wf).start j idx 1 + (((windowDims sd wf).window j 1 : ℕ) : ℤ) = ((i 1).val : ℤ)
      rw [start_zero sd wf idx hidx, window_col]
      omega

/-- Inside the window the result is the update. -/
theorem window_write_inside (x : (⟨2, ![N, D]⟩ : Shape).Idx → α) (idx : IVec ⟨1, ![1]⟩ w)
    (hidx : ∀ k, (idx k).toInt = 0) (upd : (⟨2, ![n, d]⟩ : Shape).Idx → α) (P : Fin N) (Q : Fin D)
    (hP : P.val < n) (hQ : Q.val < d) :
    Host.scatter (windowDims sd wf) (fun _ b => b) x idx upd (ix2 P Q) = upd (ix2 ⟨P.val, hP⟩ ⟨Q.val, hQ⟩) := by
  refine scatter_set_lands _ x idx upd (ix2 P Q) (ix2 ⟨P.val, hP⟩ ⟨Q.val, hQ⟩)
    ((lands_iff sd wf idx hidx _ _).mpr ⟨rfl, rfl⟩) (fun j hj => ?_)
  obtain ⟨h0, h1⟩ := (lands_iff sd wf idx hidx _ _).mp hj
  have e0 : j 0 = ⟨P.val, hP⟩ := Fin.ext h0
  have e1 : j 1 = ⟨Q.val, hQ⟩ := Fin.ext h1
  funext a
  match a with
  | ⟨0, _⟩ => exact e0
  | ⟨1, _⟩ => exact e1

/-- Outside the window the result is the operand. -/
theorem window_write_outside (x : (⟨2, ![N, D]⟩ : Shape).Idx → α) (idx : IVec ⟨1, ![1]⟩ w)
    (hidx : ∀ k, (idx k).toInt = 0) (upd : (⟨2, ![n, d]⟩ : Shape).Idx → α) (P : Fin N) (Q : Fin D)
    (hout : n ≤ P.val ∨ d ≤ Q.val) :
    Host.scatter (windowDims sd wf) (fun _ b => b) x idx upd (ix2 P Q) = x (ix2 P Q) := by
  refine scatter_set_untouched _ x idx upd (ix2 P Q) (fun j hj => ?_)
  obtain ⟨h0, h1⟩ := (lands_iff sd wf idx hidx _ _).mp hj
  have l0 := idx2_lt0 j
  have l1 := idx2_lt1 j
  have h0' : (j 0).val = P.val := h0
  have h1' : (j 1).val = Q.val := h1
  omega

end Window

end Cert.Lib.SetScatter

end
-- ==== Proof.LibBlockWrite.lean ====
/-
  A rectangular block written into a matrix at a given corner, and a chain of such writes into a constant matrix.

  The host's scatter that keeps the update, with both update axes window axes and ONE start index of two entries (row and
  column of the corner), writes an `[n, d]` block into an `[N, D]` matrix: element `(a, b)` of the block lands on element
  `(o0 + a, o1 + b)` of the matrix. So the result is the block inside the rectangle and the operand outside it
  (`block_write_inside`, `block_write_outside`). A chain of such writes of one block, at corners `(o0 t, o1 t)`, into a
  constant matrix reads, at an element, as the block's entry when some rectangle holds the element and no later one
  does, and as the constant when none does (`chain_inside`, `chain_outside`). Nothing here mentions a program.
-/
import Idealize.ShloMosaic.PureOps.Ideal
import Idealize.ShloMosaic.Lib.ValueIdx
import proofs.«123711_j62886911148706_2_alg».proof.Proof.LibScatterRows
import proofs.«123711_j62886911148706_2_alg».proof.Proof.LibSetScatter

noncomputable section

namespace Cert.Lib.BlockWrite

open Idealize.ShloMosaic Idealize.ShloMosaic.ValueIdx Cert.Lib.SetScatter

section Block
variable {N D n d w : Nat} {α : Type}

/-- The dimension numbers of an `[n, d]` block written into an `[N, D]` matrix at a start index of two entries. -/
abbrev blockDims (wf : ScatterDims.WF (⟨2, ![N, D]⟩ : Shape) ⟨1, ![2]⟩ ⟨2, ![n, d]⟩ [0, 1] [] [0, 1] 0) :
    ScatterDims (⟨2, ![N, D]⟩ : Shape) ⟨1, ![2]⟩ ⟨2, ![n, d]⟩ :=
  ⟨[0, 1], [], [0, 1], 0, wf⟩

variable (wf : ScatterDims.WF (⟨2, ![N, D]⟩ : Shape) ⟨1, ![2]⟩ ⟨2, ![n, d]⟩ [0, 1] [] [0, 1] 0)

/-- The start index read as the corner `(o0, o1)`: entry 0 is the row, entry 1 the column. -/
def Corner (idx : IVec ⟨1, ![2]⟩ w) (o0 o1 : ℕ) : Prop :=
  ∀ k : (⟨1, ![2]⟩ : Shape).Idx, (idx k).toInt = if (k 0).val = 0 then (o0 : ℤ) else (o1 : ℤ)

theorem start_row (idx : IVec ⟨1, ![2]⟩ w) (o0 o1 : ℕ) (h : Corner idx o0 o1) (j : (⟨2, ![n, d]⟩ : Shape).Idx) :
    (blockDims wf).start j idx 0 = (o0 : ℤ) := by
  unfold ScatterDims.start
  rw [dif_pos (show (0 : Fin 2) ∈ ([0, 1] : List (Fin 2)) from List.mem_cons_self), h]
  exact if_pos rfl

theorem start_col (idx : IVec ⟨1, ![2]⟩ w) (o0 o1 : ℕ) (h : Corner idx o0 o1) (j : (⟨2, ![n, d]⟩ : Shape).Idx) :
    (blockDims wf).start j idx 1 = (o1 : ℤ) := by
  unfold ScatterDims.start
  rw [dif_pos (show (1 : Fin 2) ∈ ([0, 1] : List (Fin 2)) from List.mem_cons_of_mem _ List.mem_cons_self), h]
  exact if_neg (show ¬ ((1 : ℕ) = 0) from Nat.one_ne_zero)

theorem window_row (j : (⟨2, ![n, d]⟩ : Shape).Idx) : (blockDims wf).window j 0 = (j 0).val := by
  unfold ScatterDims.window
  refine (dif_pos (show (0 : Fin 2) ∈ (List.finRange 2).filter (· ∉ ([] : List (Fin 2))) by decide)).trans ?_
  rfl

theorem window_col (j : (⟨2, ![n, d]⟩ : Shape).Idx) : (blockDims wf).window j 1 = (j 1).val := by
  unfold ScatterDims.window
  refine (dif_pos (show (1 : Fin 2) ∈ (List.finRange 2).filter (· ∉ ([] : List (Fin 2))) by decide)).trans ?_
  rfl

/-- Block element `(a, b)` lands on matrix element `(o0 + a, o1 + b)`. -/
theorem lands_iff (idx : IVec ⟨1, ![2]⟩ w) (o0 o1 : ℕ) (h : Corner idx o0 o1) (j : (⟨2, ![n, d]⟩ : Shape).Idx)
    (i : (⟨2, ![N, D]⟩ : Shape).Idx) :
    (blockDims wf).resultIdx? j idx = some i ↔ o0 + (j 0).val = (i 0).val ∧ o1 + (j 1).val = (i 1).val := by
  rw [ScatterRows.resultIdx_eq_some_iff]
  constructor
  · intro hh
    have h0 := hh 0
    have h1 := hh 1
    rw [start_row wf idx o0 o1 h, window_row] at h0
    rw [start_col wf idx o0 o1 h, window_col] at h1
    exact ⟨by omega, by omega⟩
  · rintro ⟨h0, h1⟩ a
    match a with
    | ⟨0, _⟩ =>
      show (blockDims wf).start j idx 0 + (((blockDims wf).window j 0 : ℕ) : ℤ) = ((i 0).val : ℤ)
      rw [start_row wf idx o0 o1 h, window_row]
      omega
    | ⟨1, _⟩ =>
      show (blockDims wf).start j idx 1 + (((blockDims wf).window j 1 : ℕ) : ℤ) = ((i 1).val : ℤ)
      rw [start_col wf idx o0 o1 h, window_col]
      omega

/-- Inside the rectangle the result is the block. -/
theorem block_write_inside (x : (⟨2, ![N, D]⟩ : Shape).Idx → α) (idx : IVec ⟨1, ![2]⟩ w) (o0 o1 : ℕ)
    (h : Corner idx o0 o1) (upd : (⟨2, ![n, d]⟩ : Shape).Idx → α) (P : Fin N) (Q : Fin D) (a : Fin n) (b : Fin d)
    (hP : P.val = o0 + a.val) (hQ : Q.val = o1 + b.val) :
    Host.scatter (blockDims wf) (fun _ b => b) x idx upd (ix2 P Q) = upd (ix2 a b) := by
  refine scatter_set_lands _ x idx upd (ix2 P Q) (ix2 a b)
    ((lands_iff wf idx o0 o1 h _ _).mpr ⟨hP.symm, hQ.symm⟩) (fun j hj => ?_)
  obtain ⟨h0, h1⟩ := (lands_iff wf idx o0 o1 h _ _).mp hj
  have e0 : j 0 = a := Fin.ext (by have : (ix2 P Q 0).val = P.val := rfl; omega)
  have e1 : j 1 = b := Fin.ext (by have : (ix2 P Q 1).val = Q.val := rfl; omega)
  funext c
  match c with
  | ⟨0, _⟩ => exact e0
  | ⟨1, _⟩ => exact e1

/-- Outside the rectangle the result is the operand. -/
theorem block_write_outside (x : (⟨2, ![N, D]⟩ : Shape).Idx → α) (idx : IVec ⟨1, ![2]⟩ w) (o0 o1 : ℕ)
    (h : Corner idx o0 o1) (upd : (⟨2, ![n, d]⟩ : Shape).Idx → α) (P : Fin N) (Q : Fin D)
    (hout : ¬ (o0 ≤ P.val ∧ P.val < o0 + n ∧ o1 ≤ Q.val ∧ Q.val < o1 + d)) :
    Host.scatter (blockDims wf) (fun _ b => b) x idx upd (ix2 P Q) = x (ix2 P Q) := by
  refine scatter_set_untouched _ x idx upd (ix2 P Q) (fun j hj => hout ?_)
  obtain ⟨h0, h1⟩ := (lands_iff wf idx o0 o1 h _ _).mp hj
  have e0 : (ix2 P Q 0).val = P.val := rfl
  have e1 : (ix2 P Q 1).val = Q.val := rfl
  have := (j 0).isLt
  have := (j 1).isLt
  have hn : (⟨2, ![n, d]⟩ : Shape).size 0 = n := rfl
  have hd : (⟨2, ![n, d]⟩ : Shape).size 1 = d := rfl
  refine ⟨by omega, by omega, by omega, by omega⟩

/-! ## A chain of writes of one block into a constant matrix -/

/-- `L` writes of the block `upd`, write `t` with start index `idx t`, into the constant matrix `z`. -/
def chain (z : α) (upd : (⟨2, ![n, d]⟩ : Shape).Idx → α) (idx : ℕ → IVec ⟨1, ![2]⟩ w) :
    ℕ → (⟨2, ![N, D]⟩ : Shape).Idx → α
  | 0 => fun _ => z
  | L + 1 => Host.scatter (blockDims wf) (fun _ b => b) (chain z upd idx L) (idx L) upd

variable (z : α) (upd : (⟨2, ![n, d]⟩ : Shape).Idx → α) (idx : ℕ → IVec ⟨1, ![2]⟩ w) (o0 o1 : ℕ → ℕ)

/-- An element no rectangle holds keeps the constant. -/
theorem chain_outside (P : Fin N) (Q : Fin D) :
    ∀ L : ℕ, (∀ t, t < L → Corner (idx t) (o0 t) (o1 t)) →
      (∀ t, t < L → ¬ (o0 t ≤ P.val ∧ P.val < o0 t + n ∧ o1 t ≤ Q.val ∧ Q.val < o1 t + d)) →
      chain wf z upd idx L (ix2 P Q) = z
  | 0, _, _ => rfl
  | L + 1, hc, hout => by
    show Host.scatter (blockDims wf) (fun _ b => b) (chain wf z upd idx L) (idx L) upd (ix2 P Q) = z
    rw [block_write_outside wf _ (idx L) (o0 L) (o1 L) (hc L (Nat.lt_succ_self L)) upd P Q (hout L (Nat.lt_succ_self L))]
    exact chain_outside P Q L (fun t ht => hc t (Nat.lt_succ_of_lt ht)) (fun t ht => hout t (Nat.lt_succ_of_lt ht))

/-- An element of rectangle `t` that no later rectangle holds is the block's entry. -/
theorem chain_inside (P : Fin N) (Q : Fin D) (t : ℕ) (a : Fin n) (b : Fin d)
    (hP : P.val = o0 t + a.val) (hQ : Q.val = o1 t + b.val) :
    ∀ L : ℕ, t < L → (∀ t', t' < L → Corner (idx t') (o0 t') (o1 t')) →
      (∀ t', t < t' → t' < L → ¬ (o0 t' ≤ P.val ∧ P.val < o0 t' + n ∧ o1 t' ≤ Q.val ∧ Q.val < o1 t' + d)) →
      chain wf z upd idx L (ix2 P Q) = upd (ix2 a b)
  | 0, ht, _, _ => absurd ht (Nat.not_lt_zero t)
  | L + 1, ht, hc, hout => by
    show Host.scatter (blockDims wf) (fun _ b => b) (chain wf z upd idx L) (idx L) upd (ix2 P Q) = upd (ix2 a b)
    rcases Nat.lt_succ_iff_lt_or_eq.mp ht with h | h
    · rw [block_write_outside wf _ (idx L) (o0 L) (o1 L) (hc L (Nat.lt_succ_self L)) upd P Q
        (hout L h (Nat.lt_succ_self L))]
      exact chain_inside P Q t a b hP hQ L h (fun t' ht' => hc t' (Nat.lt_succ_of_lt ht'))
        (fun t' h1 h2 => hout t' h1 (Nat.lt_succ_of_lt h2))
    · subst h
      exact block_write_inside wf _ (idx t) (o0 t) (o1 t) (hc t (Nat.lt_succ_self t)) upd P Q a b hP hQ

end Block

end Cert.Lib.BlockWrite

end
-- ==== Proof.Spec.lean ====
/-
  The mathematics of one gated recurrent step, row by row, and of its lane-dense folding.

  One logical row carries 9 inputs, 32 old hidden values and 32 old cell values. With weights w1 [9,16], w2 [16,32],
  w3 [32,9] the step is
      pre  = tanh (x · w1)                      (16 values)
      z    = pre · w2                           (32 values)
      f    = logistic (z + old_cell)
      cell = f * old_cell + (1 - f) * tanh (z + old_h)
      hid  = tanh cell
      out  = hid · w3                           (9 values)
  The folded form lays eight consecutive logical rows side by side in one physical row (72 inputs, 256 hidden, 256 cell
  values) and multiplies by matrices that carry eight copies of a weight matrix on their diagonal and zero elsewhere.
  A column of such a matrix is zero outside one diagonal block, and a product with zero is zero for every extended real,
  the infinities included, so a contraction against that column is the contraction of one slot's entries against one
  column of the weight matrix (`sum_blockdiag`). Slot by slot the folded step is therefore the logical step; no
  finiteness is needed.
-/
import Idealize.ShloMosaic.PureOps.Ideal
import Idealize.ShloMosaic.Lib.ValueIdx
import Mathlib.Algebra.BigOperators.Fin

noncomputable section

namespace Cert.Gated

open Idealize.ShloMosaic Idealize.ShloMosaic.ValueIdx

/-- A contraction against a column that vanishes outside block `s` of `A` consecutive blocks of `K` entries is the
    contraction of that block's entries alone. -/
theorem sum_blockdiag {A K n : ℕ} (hn : n = A * K) (X d : Fin n → EReal) (s : ℕ) (hs : s < A)
    (Xs wv : Fin K → EReal)
    (hX : ∀ (k : Fin n) (j : Fin K), k.val = s * K + j.val → X k = Xs j)
    (hd0 : ∀ k : Fin n, k.val / K ≠ s → d k = 0)
    (hd1 : ∀ (k : Fin n) (j : Fin K), k.val = s * K + j.val → d k = wv j) :
    ∑ k, X k * d k = ∑ j, Xs j * wv j := by
  subst hn
  rw [← Equiv.sum_comp finProdFinEquiv, Fintype.sum_prod_type]
  rw [Finset.sum_eq_single (⟨s, hs⟩ : Fin A)]
  · refine Finset.sum_congr rfl fun j _ => ?_
    have hv : (finProdFinEquiv ((⟨s, hs⟩ : Fin A), j)).val = s * K + j.val := by
      rw [finProdFinEquiv_apply_val]
      show j.val + K * s = s * K + j.val
      rw [Nat.mul_comm, Nat.add_comm]
    rw [hX _ j hv, hd1 _ j hv]
  · intro i _ hi
    refine Finset.sum_eq_zero fun j _ => ?_
    have hv : (finProdFinEquiv (i, j)).val = j.val + K * i.val := finProdFinEquiv_apply_val _
    have hK : 0 < K := Nat.pos_of_ne_zero (fun h => by subst h; exact j.elim0)
    have hne : (finProdFinEquiv (i, j)).val / K ≠ s := by
      rw [hv, Nat.add_mul_div_left _ _ hK, Nat.div_eq_of_lt j.isLt, Nat.zero_add]
      exact fun h => hi (Fin.ext h)
    rw [hd0 _ hne, mul_zero]
  · intro h
    exact absurd (Finset.mem_univ _) h

/-- The cell update from the pre-activation `z`, the old cell value and the old hidden value. -/
def gate (z oc oh : EReal) : EReal :=
  Ideal.logistic (z + oc) * oc + (Ideal.ofBits .f32 0x3F800000#32 - Ideal.logistic (z + oc)) * Ideal.tanh (z + oh)

/-! ## One logical row -/

section Row
variable (w1 : (⟨2, ![9, 16]⟩ : Shape).Idx → EReal) (w2 : (⟨2, ![16, 32]⟩ : Shape).Idx → EReal)
  (w3 : (⟨2, ![32, 9]⟩ : Shape).Idx → EReal)

def preR (xr : Fin 9 → EReal) (a : Fin 16) : EReal := Ideal.tanh (∑ j : Fin 9, xr j * w1 (ix2 j a))
def linR (xr : Fin 9 → EReal) (b : Fin 32) : EReal := ∑ a : Fin 16, preR w1 xr a * w2 (ix2 a b)
def cellR (xr : Fin 9 → EReal) (ohr ocr : Fin 32 → EReal) (b : Fin 32) : EReal :=
  gate (linR w1 w2 xr b) (ocr b) (ohr b)
def hidR (xr : Fin 9 → EReal) (ohr ocr : Fin 32 → EReal) (b : Fin 32) : EReal :=
  Ideal.tanh (cellR w1 w2 xr ohr ocr b)
def outR (xr : Fin 9 → EReal) (ohr ocr : Fin 32 → EReal) (o : Fin 9) : EReal :=
  ∑ b : Fin 32, hidR w1 w2 xr ohr ocr b * w3 (ix2 b o)

end Row

/-! ## One physical row of eight folded logical rows -/

section Folded
variable (d1 : (⟨2, ![72, 128]⟩ : Shape).Idx → EReal) (d2 : (⟨2, ![128, 256]⟩ : Shape).Idx → EReal)
  (d3 : (⟨2, ![256, 72]⟩ : Shape).Idx → EReal)

def preF (XF : Fin 72 → EReal) (c : Fin 128) : EReal := Ideal.tanh (∑ k : Fin 72, XF k * d1 (ix2 k c))
def linF (XF : Fin 72 → EReal) (c : Fin 256) : EReal := ∑ a : Fin 128, preF d1 XF a * d2 (ix2 a c)
def cellF (XF : Fin 72 → EReal) (OHF OCF : Fin 256 → EReal) (c : Fin 256) : EReal :=
  gate (linF d1 d2 XF c) (OCF c) (OHF c)
def hidF (XF : Fin 72 → EReal) (OHF OCF : Fin 256 → EReal) (c : Fin 256) : EReal :=
  Ideal.tanh (cellF d1 d2 XF OHF OCF c)
def outF (XF : Fin 72 → EReal) (OHF OCF : Fin 256 → EReal) (c : Fin 72) : EReal :=
  ∑ k : Fin 256, hidF d1 d2 XF OHF OCF k * d3 (ix2 k c)

end Folded

/-! ## The three result arrays, logical row by logical row -/

section Results
variable (x : (⟨2, ![1048576, 9]⟩ : Shape).Idx → EReal) (oh oc : (⟨2, ![1048576, 32]⟩ : Shape).Idx → EReal)
  (w1 : (⟨2, ![9, 16]⟩ : Shape).Idx → EReal) (w2 : (⟨2, ![16, 32]⟩ : Shape).Idx → EReal)
  (w3 : (⟨2, ![32, 9]⟩ : Shape).Idx → EReal)

/-- The new cell array. -/
def Gcell : (⟨2, ![1048576, 32]⟩ : Shape).Idx → EReal := fun i =>
  cellR w1 w2 (fun j => x (ix2 (i 0) j)) (fun b => oh (ix2 (i 0) b)) (fun b => oc (ix2 (i 0) b)) (i 1)
/-- The new hidden array. -/
def Ghid : (⟨2, ![1048576, 32]⟩ : Shape).Idx → EReal := fun i =>
  hidR w1 w2 (fun j => x (ix2 (i 0) j)) (fun b => oh (ix2 (i 0) b)) (fun b => oc (ix2 (i 0) b)) (i 1)
/-- The output array. -/
def Gout : (⟨2, ![1048576, 9]⟩ : Shape).Idx → EReal := fun i =>
  outR w1 w2 w3 (fun j => x (ix2 (i 0) j)) (fun b => oh (ix2 (i 0) b)) (fun b => oc (ix2 (i 0) b)) (i 1)

end Results

/-- `d` carries copies of `w` ([K, N]) on its diagonal blocks and zero elsewhere. -/
def IsDiag (K N : ℕ) {R C : ℕ} (d : (⟨2, ![R, C]⟩ : Shape).Idx → EReal) (w : (⟨2, ![K, N]⟩ : Shape).Idx → EReal) : Prop :=
  (∀ (k : Fin R) (c : Fin C), k.val / K ≠ c.val / N → d (ix2 k c) = 0) ∧
  (∀ (k : Fin R) (c : Fin C) (j : Fin K) (a : Fin N) (s : ℕ), k.val = s * K + j.val → c.val = s * N + a.val →
      d (ix2 k c) = w (ix2 j a))

section Fold
variable {w1 : (⟨2, ![9, 16]⟩ : Shape).Idx → EReal} {w2 : (⟨2, ![16, 32]⟩ : Shape).Idx → EReal}
  {w3 : (⟨2, ![32, 9]⟩ : Shape).Idx → EReal}
  {d1 : (⟨2, ![72, 128]⟩ : Shape).Idx → EReal} {d2 : (⟨2, ![128, 256]⟩ : Shape).Idx → EReal}
  {d3 : (⟨2, ![256, 72]⟩ : Shape).Idx → EReal}
  (h1 : IsDiag 9 16 d1 w1) (h2 : IsDiag 16 32 d2 w2) (h3 : IsDiag 32 9 d3 w3)
  {XF : Fin 72 → EReal} {OHF OCF : Fin 256 → EReal} {xr : Fin 9 → EReal} {ohr ocr : Fin 32 → EReal}
  {s : ℕ} (hs : s < 8)
  (hx : ∀ (k : Fin 72) (j : Fin 9), k.val = s * 9 + j.val → XF k = xr j)
  (hoh : ∀ (k : Fin 256) (b : Fin 32), k.val = s * 32 + b.val → OHF k = ohr b)
  (hoc : ∀ (k : Fin 256) (b : Fin 32), k.val = s * 32 + b.val → OCF k = ocr b)

include h1 hs hx in
/-- Slot `s`'s pre-activations of the folded row are the logical row's. -/
theorem preF_eq (c : Fin 128) (a : Fin 16) (hc : c.val = s * 16 + a.val) : preF d1 XF c = preR w1 xr a := by
  unfold preF preR
  congr 1
  have hcs : c.val / 16 = s := by omega
  exact sum_blockdiag (A := 8) (K := 9) rfl XF (fun k => d1 (ix2 k c)) s hs xr (fun j => w1 (ix2 j a)) hx
    (fun k hk => h1.1 k c (by omega)) (fun k j hk => h1.2 k c j a s hk hc)

include h1 h2 hs hx in
theorem linF_eq (c : Fin 256) (b : Fin 32) (hc : c.val = s * 32 + b.val) : linF d1 d2 XF c = linR w1 w2 xr b := by
  unfold linF linR
  have hcs : c.val / 32 = s := by omega
  exact sum_blockdiag (A := 8) (K := 16) rfl (preF d1 XF) (fun k => d2 (ix2 k c)) s hs (preR w1 xr)
    (fun j => w2 (ix2 j b)) (fun k j hk => preF_eq h1 hs hx k j hk)
    (fun k hk => h2.1 k c (by omega)) (fun k j hk => h2.2 k c j b s hk hc)

include h1 h2 hs hx hoh hoc in
theorem cellF_eq (c : Fin 256) (b : Fin 32) (hc : c.val = s * 32 + b.val) :
    cellF d1 d2 XF OHF OCF c = cellR w1 w2 xr ohr ocr b := by
  unfold cellF cellR
  rw [linF_eq h1 h2 hs hx c b hc, hoh c b hc, hoc c b hc]

include h1 h2 hs hx hoh hoc in
theorem hidF_eq (c : Fin 256) (b : Fin 32) (hc : c.val = s * 32 + b.val) :
    hidF d1 d2 XF OHF OCF c = hidR w1 w2 xr ohr ocr b := by
  unfold hidF hidR
  rw [cellF_eq h1 h2 hs hx hoh hoc c b hc]

include h1 h2 h3 hs hx hoh hoc in
theorem outF_eq (c : Fin 72) (o : Fin 9) (hc : c.val = s * 9 + o.val) :
    outF d1 d2 d3 XF OHF OCF c = outR w1 w2 w3 xr ohr ocr o := by
  unfold outF outR
  have hcs : c.val / 9 = s := by omega
  exact sum_blockdiag (A := 8) (K := 32) rfl (hidF d1 d2 XF OHF OCF) (fun k => d3 (ix2 k c)) s hs
    (hidR w1 w2 xr ohr ocr) (fun j => w3 (ix2 j o)) (fun k j hk => hidF_eq h1 h2 hs hx hoh hoc k j hk)
    (fun k hk => h3.1 k c (by omega)) (fun k j hk => h3.2 k c j o s hk hc)

end Fold

end Cert.Gated

end
-- ==== Proof.Weights.lean ====
/-
  Eight copies of a weight matrix written down the diagonal of a zero matrix.

  Write `t` puts the `[K, N]` matrix at corner `(t * K, t * N)`. The rectangles of different writes share no row, so an
  element inside rectangle `s` is written once and holds the matrix's entry, and an element whose row block and column
  block differ lies in no rectangle and keeps the zero: the result is block diagonal (`Cert.Gated.IsDiag`).
-/
import proofs.«123711_j62886911148706_2_alg».proof.Proof.LibBlockWrite
import proofs.«123711_j62886911148706_2_alg».proof.Proof.Spec

noncomputable section

namespace Cert.Gated

open Idealize.ShloMosaic Idealize.ShloMosaic.ValueIdx Cert.Lib.BlockWrite

/-- `L` writes of one `[K, N]` matrix down the diagonal of the zero `[L * K, L * N]` matrix give the block-diagonal matrix. -/
theorem isDiag_chain {R C K N L w : ℕ} (hR : R = L * K)
    (wf : ScatterDims.WF (⟨2, ![R, C]⟩ : Shape) ⟨1, ![2]⟩ ⟨2, ![K, N]⟩ [0, 1] [] [0, 1] 0)
    (upd : (⟨2, ![K, N]⟩ : Shape).Idx → EReal) (idx : ℕ → IVec ⟨1, ![2]⟩ w)
    (hc : ∀ t, t < L → Corner (idx t) (t * K) (t * N)) :
    IsDiag K N (chain wf 0 upd idx L) upd := by
  refine ⟨fun k c hne => ?_, fun k c j a s hk hcc => ?_⟩
  · refine chain_outside wf 0 upd idx (fun t => t * K) (fun t => t * N) k c L hc (fun t _ hit => hne ?_)
    obtain ⟨h1, h2, h3, h4⟩ := hit
    rw [Nat.div_eq_of_lt_le h1 (by rw [Nat.succ_mul]; exact h2), Nat.div_eq_of_lt_le h3 (by rw [Nat.succ_mul]; exact h4)]
  · have hs : s < L := by
      have h1 : s * K < L * K := by
        have := k.isLt
        omega
      exact Nat.lt_of_mul_lt_mul_right h1
    refine chain_inside wf 0 upd idx (fun t => t * K) (fun t => t * N) k c s j a hk hcc L hs hc
      (fun t' hlt _ hit => ?_)
    obtain ⟨h1, _, _, _⟩ := hit
    have h2 : (s + 1) * K ≤ t' * K := Nat.mul_le_mul_right K hlt
    have h3 := j.isLt
    rw [Nat.succ_mul] at h2
    have h4 : k.val = s * K + j.val := hk
    have h1' : t' * K ≤ k.val := h1
    omega

/-- The start index assembled from two constants, entry 0 the row and entry 1 the column. -/
theorem corner_concat (hb : (⟨0, ![]⟩ : Shape).BroadcastsInDim ⟨1, ![1]⟩ ![])
    (hcat : Shape.Concatenates [(⟨1, ![1]⟩ : Shape), ⟨1, ![1]⟩] ⟨1, ![2]⟩ 0) (a b : BitVec 32) (o0 o1 : ℕ)
    (ha : a.toInt = (o0 : ℤ)) (hb' : b.toInt = (o1 : ℤ)) :
    Corner (concatenate (α := BitVec 32) ⟨1, ![2]⟩ 0
      [⟨⟨1, ![1]⟩, broadcastInDim ⟨1, ![1]⟩ ![] hb (constantI ⟨0, ![]⟩ 32 a)⟩,
       ⟨⟨1, ![1]⟩, broadcastInDim ⟨1, ![1]⟩ ![] hb (constantI ⟨0, ![]⟩ 32 b)⟩] hcat) o0 o1 := by
  intro k
  have e : concatenate (α := BitVec 32) ⟨1, ![2]⟩ 0
      [⟨⟨1, ![1]⟩, broadcastInDim ⟨1, ![1]⟩ ![] hb (constantI ⟨0, ![]⟩ 32 a)⟩,
       ⟨⟨1, ![1]⟩, broadcastInDim ⟨1, ![1]⟩ ![] hb (constantI ⟨0, ![]⟩ 32 b)⟩] hcat k
      = if (k 0).val = 0 then a else b := by
    rw [eq_ix1 k]
    generalize k 0 = k0
    match k0 with
    | ⟨0, _⟩ => rfl
    | ⟨1, _⟩ => rfl
  rw [e]
  split
  · exact ha
  · exact hb'

end Cert.Gated

end
-- ==== Proof.HostLib.lean ====
/-
  The host lines before the region, cut into stretches.

  The contents after a line of operations are the contents after its tail from the contents after its head, so what one
  buffer holds can be read stretch by stretch: a stretch that does not write the buffer is skipped, and the stretch that
  computes it is evaluated from opaque contents. The index vectors of the block writes and the write chain's start
  index function are named here.
-/
import proofs.«123711_j62886911148706_2_alg».proof.Proof.Gen.KernelIdeal.Frame
import proofs.«123711_j62886911148706_2_alg».proof.Proof.Weights
import Idealize.ShloMosaic.Lib.StableHlo.Run

noncomputable section

namespace Cert.KernelIdeal.Host

open Idealize.ShloMosaic Idealize.ShloMosaic.TcCoe Idealize.SL.Sem Idealize.ShloMosaic.StableHlo
open Cert.KernelIdeal Cert.KernelIdeal.Gen Cert.Gated Cert.Lib.BlockWrite

/-- The contents after a line are those after its tail, from the contents after its head. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- The same, cutting a line after its first `k` operations. -/
theorem after_split {Val : EltTy → Type} (L : List (HloOp τ sig Val)) (k : ℕ) (V : Valuation τ sig Val) :
    StableHlo.after L V = StableHlo.after (L.drop k) (StableHlo.after (L.take k) V) := by
  rw [← after_append, List.take_append_drop]

/-- The start index of write `t` of a chain whose corners are `(t * K, t * N)`. -/
def diagIdx (K N : ℕ) (t : ℕ) : IVec S2 32 :=
  concatenate S2 0 [⟨S1, broadcastInDim S1 ![] bcast_S_S1 (constantI S_ 32 (BitVec.ofNat 32 (t * K)))⟩,
    ⟨S1, broadcastInDim S1 ![] bcast_S_S1 (constantI S_ 32 (BitVec.ofNat 32 (t * N)))⟩] concatenates_S1_S1_S2_d0

/-- Its corner, for the eight writes of a chain with small blocks. -/
theorem diagIdx_corner (K N : ℕ) (hK : K ≤ 32) (hN : N ≤ 32) (t : ℕ) (ht : t < 8) : Corner (diagIdx K N t) (t * K) (t * N) := by
  refine corner_concat bcast_S_S1 concatenates_S1_S1_S2_d0 _ _ _ _ ?_ ?_
  · have h : t * K < 2 ^ 31 := by
      have : t * K ≤ 7 * 32 := Nat.mul_le_mul (by omega) hK
      omega
    have e : (BitVec.ofNat 32 (t * K)).toNat = t * K := by
      rw [BitVec.toNat_ofNat]
      exact Nat.mod_eq_of_lt (by omega)
    rw [BitVec.toInt_eq_toNat_of_lt (by rw [e]; omega), e]
  · have h : t * N < 2 ^ 31 := by
      have : t * N ≤ 7 * 32 := Nat.mul_le_mul (by omega) hN
      omega
    have e : (BitVec.ofNat 32 (t * N)).toNat = t * N := by
      rw [BitVec.toNat_ofNat]
      exact Nat.mod_eq_of_lt (by omega)
    rw [BitVec.toInt_eq_toNat_of_lt (by rw [e]; omega), e]

end Cert.KernelIdeal.Host

end
-- ==== Proof.Host1.lean ====
/-
  What the region finds in its first four windows: the three inputs folded eight rows to one, and the first weight matrix
  written eight times down the diagonal of a zero matrix.
-/
import proofs.«123711_j62886911148706_2_alg».proof.Proof.HostLib

noncomputable section

namespace Cert.KernelIdeal.Host

open Idealize.ShloMosaic Idealize.ShloMosaic.TcCoe Idealize.SL.Sem Idealize.ShloMosaic.StableHlo
open Cert.KernelIdeal Cert.KernelIdeal.Gen Cert.Gated Cert.Lib.BlockWrite

variable (m : (ℓ : Loc nD τ sig) → Buf (Elt Ideal) ℓ)

set_option maxHeartbeats 0 in
/-- Window 0's array is the input, eight rows folded to one. -/
theorem V_v0 (c : Dev nD) : (V m c main_v0 : FVec Ideal S131072x72 .f32)
    = shapeCast S131072x72 (m ((c : Thread nD τ).loc main_arg0)) shapeCasts_S1048576x9_S131072x72 := by
  show StableHlo.after hostOps0 (fun b => m (c, b)) (Proc.devRef .tc main_v0) = _
  rw [after_split hostOps0 3]
  rw [StableHlo.after_of_forall_not_mem (b := Proc.devRef .tc main_v0) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  simp only [hostOps0, List.take_succ_cons, List.take_zero]
  after_results
  rfl

set_option maxHeartbeats 0 in
/-- Window 1's array is the old hidden state, folded. -/
theorem V_v1 (c : Dev nD) : (V m c main_v1 : FVec Ideal S131072x256 .f32)
    = shapeCast S131072x256 (m ((c : Thread nD τ).loc main_arg1)) shapeCasts_S1048576x32_S131072x256 := by
  show StableHlo.after hostOps0 (fun b => m (c, b)) (Proc.devRef .tc main_v1) = _
  rw [after_split hostOps0 3]
  rw [StableHlo.after_of_forall_not_mem (b := Proc.devRef .tc main_v1) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  simp only [hostOps0, List.take_succ_cons, List.take_zero]
  after_results
  rfl

set_option maxHeartbeats 0 in
/-- Window 2's array is the old cell state, folded. -/
theorem V_v2 (c : Dev nD) : (V m c main_v2 : FVec Ideal S131072x256 .f32)
    = shapeCast S131072x256 (m ((c : Thread nD τ).loc main_arg2)) shapeCasts_S1048576x32_S131072x256 := by
  show StableHlo.after hostOps0 (fun b => m (c, b)) (Proc.devRef .tc main_v2) = _
  rw [after_split hostOps0 3]
  rw [StableHlo.after_of_forall_not_mem (b := Proc.devRef .tc main_v2) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  simp only [hostOps0, List.take_succ_cons, List.take_zero]
  after_results
  rfl

set_option maxHeartbeats 0 in
/-- Window 3's array is the chain of eight writes of the first weight matrix. -/
theorem V_v36 (c : Dev nD) : (V m c main_v36 : FVec Ideal S72x128 .bf16)
    = truncf .bf16 (chain scatter_S72x128_S2_S9x16_01_n_01_0.wf (Ideal.ofBits .f32 0x00000000#32)
        (m ((c : Thread nD τ).loc main_arg3)) (diagIdx 9 16) 8) bitsLt_bf16_f32 := by
  show StableHlo.after hostOps0 (fun b => m (c, b)) (Proc.devRef .tc main_v36) = _
  rw [after_split hostOps0 54]
  rw [StableHlo.after_of_forall_not_mem (b := Proc.devRef .tc main_v36) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  simp only [hostOps0, List.take_succ_cons, List.take_zero]
  after_results
  rfl

/-- The first folded weight matrix is block diagonal. -/
theorem diag1 (c : Dev nD) : IsDiag 9 16 (V m c main_v36 : FVec Ideal S72x128 .bf16) (m ((c : Thread nD τ).loc main_arg3)) := by
  rw [V_v36, Ideal.ofBits_zero_f32]
  exact isDiag_chain (L := 8) rfl _ _ _ (fun t ht => diagIdx_corner 9 16 (by omega) (by omega) t ht)

end Cert.KernelIdeal.Host

end
-- ==== Proof.Host2.lean ====
/-
  What the region finds in its fifth window: the second weight matrix written eight times down the diagonal of a zero matrix.
-/
import proofs.«123711_j62886911148706_2_alg».proof.Proof.HostLib

noncomputable section

namespace Cert.KernelIdeal.Host

open Idealize.ShloMosaic Idealize.ShloMosaic.TcCoe Idealize.SL.Sem Idealize.ShloMosaic.StableHlo
open Cert.KernelIdeal Cert.KernelIdeal.Gen Cert.Gated Cert.Lib.BlockWrite

variable (m : (ℓ : Loc nD τ sig) → Buf (Elt Ideal) ℓ)

set_option maxHeartbeats 0 in
/-- Window 4's array is the chain of eight writes of the second weight matrix. -/
theorem V_v70 (c : Dev nD) : (V m c main_v70 : FVec Ideal S128x256 .bf16)
    = truncf .bf16 (chain scatter_S128x256_S2_S16x32_01_n_01_0.wf (Ideal.ofBits .f32 0x00000000#32)
        (m ((c : Thread nD τ).loc main_arg4)) (diagIdx 16 32) 8) bitsLt_bf16_f32 := by
  show StableHlo.after hostOps0 (fun b => m (c, b)) (Proc.devRef .tc main_v70) = _
  rw [after_split hostOps0 105]
  rw [StableHlo.after_of_forall_not_mem (b := Proc.devRef .tc main_v70) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  rw [after_split (List.take 105 hostOps0) 54]
  have hW : StableHlo.after (List.take 54 (List.take 105 hostOps0)) (fun b => m (c, b)) (Proc.devRef .tc main_arg4)
      = m (c, Proc.devRef .tc main_arg4) :=
    StableHlo.after_of_forall_not_mem (b := Proc.devRef .tc main_arg4) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  generalize StableHlo.after (List.take 54 (List.take 105 hostOps0)) (fun b => m (c, b)) = W at hW ⊢
  simp only [hostOps0, List.take_succ_cons, List.take_zero, List.drop_succ_cons, List.drop_zero]
  after_results
  rw [hW]
  rfl

/-- The second folded weight matrix is block diagonal. -/
theorem diag2 (c : Dev nD) : IsDiag 16 32 (V m c main_v70 : FVec Ideal S128x256 .bf16) (m ((c : Thread nD τ).loc main_arg4)) := by
  rw [V_v70, Ideal.ofBits_zero_f32]
  exact isDiag_chain (L := 8) rfl _ _ _ (fun t ht => diagIdx_corner 16 32 (by omega) (by omega) t ht)

end Cert.KernelIdeal.Host

end
-- ==== Proof.Host3.lean ====
/-
  What the region finds in its sixth window: the third weight matrix written eight times down the diagonal of a zero matrix.
-/
import proofs.«123711_j62886911148706_2_alg».proof.Proof.HostLib

noncomputable section

namespace Cert.KernelIdeal.Host

open Idealize.ShloMosaic Idealize.ShloMosaic.TcCoe Idealize.SL.Sem Idealize.ShloMosaic.StableHlo
open Cert.KernelIdeal Cert.KernelIdeal.Gen Cert.Gated Cert.Lib.BlockWrite

variable (m : (ℓ : Loc nD τ sig) → Buf (Elt Ideal) ℓ)

set_option maxHeartbeats 0 in
/-- Window 5's array is the chain of eight writes of the third weight matrix. -/
theorem V_v104 (c : Dev nD) : (V m c main_v104 : FVec Ideal S256x72 .bf16)
    = truncf .bf16 (chain scatter_S256x72_S2_S32x9_01_n_01_0.wf (Ideal.ofBits .f32 0x00000000#32)
        (m ((c : Thread nD τ).loc main_arg5)) (diagIdx 32 9) 8) bitsLt_bf16_f32 := by
  show StableHlo.after hostOps0 (fun b => m (c, b)) (Proc.devRef .tc main_v104) = _
  rw [after_split hostOps0 105]
  have hW : StableHlo.after (List.take 105 hostOps0) (fun b => m (c, b)) (Proc.devRef .tc main_arg5)
      = m (c, Proc.devRef .tc main_arg5) :=
    StableHlo.after_of_forall_not_mem (b := Proc.devRef .tc main_arg5) _ _ (List.forall_iff_forall_mem.mp (by
      simp only [hostOps0, List.take_succ_cons, List.take_zero, List.drop_succ_cons, List.drop_zero, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  generalize StableHlo.after (List.take 105 hostOps0) (fun b => m (c, b)) = W at hW ⊢
  simp only [hostOps0, List.drop_succ_cons, List.drop_zero]
  after_results
  rw [hW]
  rfl

/-- The third folded weight matrix is block diagonal. -/
theorem diag3 (c : Dev nD) : IsDiag 32 9 (V m c main_v104 : FVec Ideal S256x72 .bf16) (m ((c : Thread nD τ).loc main_arg5)) := by
  rw [V_v104, Ideal.ofBits_zero_f32]
  exact isDiag_chain (L := 8) rfl _ _ _ (fun t ht => diagIdx_corner 32 9 (by omega) (by omega) t ht)

end Cert.KernelIdeal.Host

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.Body.lean ====
/-
  The kernel body's three stored values, read at an entry (p, q) of a block of 2048 physical rows.

  At the ideal values a change of float format is the identity and a matrix product into the zero matrix is the plain
  sum over the contracted axis, so the stored cell block, hidden block and output block at (p, q) are the folded step
  (`Cert.Gated.cellF`, `hidF`, `outF`) of physical row p of the three input blocks against the three loaded matrices.
-/
import proofs.«123711_j62886911148706_2_alg».proof.Proof.Gen.KernelIdeal.Skeleton
import proofs.«123711_j62886911148706_2_alg».proof.Proof.LibPlainMatmul
import proofs.«123711_j62886911148706_2_alg».proof.Proof.Spec
import Idealize.ShloMosaic.Lib.Pipeline.Value

noncomputable section

namespace Cert.KernelIdeal.Body

open Idealize.ShloMosaic Idealize.ShloMosaic.ValueIdx Idealize.ShloMosaic.Pipeline Cert.KernelIdeal Cert.KernelIdeal.Gen Cert.Gated

theorem mm1 (l : FVec Ideal S2048x72 .bf16) (r : FVec Ideal S72x128 .bf16) (p : Fin 2048) (q : Fin 128) :
    matmul dot_S2048x72_S72x128_S2048x128_1_0_0_1_n_n none l r (constant S2048x128 .f32 0x00000000#32) (ix2 p q)
      = ∑ k : Fin 72, l (ix2 p k) * r (ix2 k q) :=
  Cert.PlainMatmul.matmul_zero_apply dot_S2048x72_S72x128_S2048x128_1_0_0_1_n_n.wf none l r p q

theorem mm2 (l : FVec Ideal S2048x128 .bf16) (r : FVec Ideal S128x256 .bf16) (p : Fin 2048) (q : Fin 256) :
    matmul dot_S2048x128_S128x256_S2048x256_1_0_0_1_n_n none l r (constant S2048x256 .f32 0x00000000#32) (ix2 p q)
      = ∑ k : Fin 128, l (ix2 p k) * r (ix2 k q) :=
  Cert.PlainMatmul.matmul_zero_apply dot_S2048x128_S128x256_S2048x256_1_0_0_1_n_n.wf none l r p q

theorem mm3 (l : FVec Ideal S2048x256 .bf16) (r : FVec Ideal S256x72 .bf16) (p : Fin 2048) (q : Fin 72) :
    matmul dot_S2048x256_S256x72_S2048x72_1_0_0_1_n_n none l r (constant S2048x72 .f32 0x00000000#32) (ix2 p q)
      = ∑ k : Fin 256, l (ix2 p k) * r (ix2 k q) :=
  Cert.PlainMatmul.matmul_zero_apply dot_S2048x256_S256x72_S2048x72_1_0_0_1_n_n.wf none l r p q

variable (x0 : Vec Ideal S2048x72 .f32) (x3 : Vec Ideal S72x128 .bf16) (x4 : Vec Ideal S128x256 .bf16)
  (xc xh : Vec Ideal S2048x256 .f32) (x5 : Vec Ideal S256x72 .bf16)

/-- The stored cell block at (p, q). -/
theorem pay1_apply (p : Fin 2048) (q : Fin 256) :
    k0_pay1 (F := Ideal) x0 x3 x4 xc xh (ix2 p q)
      = cellF x3 x4 (fun k => x0 (ix2 p k)) (fun k => xh (ix2 p k)) (fun k => xc (ix2 p k)) q := by
  unfold k0_pay1 cellF gate linF preF
  simp only [shapeCast_self]
  simp only [addf, mulf, subf, tanh, logistic, broadcast, truncf, Scalar.ofBits, Ideal.addf_def, Ideal.mulf_def,
    Ideal.subf_def, Ideal.tanh_def, Ideal.logistic_def, Ideal.truncf_def, Ideal.ofBits_def, mm2, mm1]

/-- The stored hidden block at (p, q). -/
theorem pay2_apply (p : Fin 2048) (q : Fin 256) :
    k0_pay2 (F := Ideal) x0 x3 x4 xc xh (ix2 p q)
      = hidF x3 x4 (fun k => x0 (ix2 p k)) (fun k => xh (ix2 p k)) (fun k => xc (ix2 p k)) q := by
  unfold k0_pay2 hidF
  show Ideal.tanh (k0_pay1 (F := Ideal) x0 x3 x4 xc xh (ix2 p q)) = _
  rw [pay1_apply]

/-- The stored output block at (p, q). -/
theorem pay3_apply (p : Fin 2048) (q : Fin 72) :
    k0_pay3 (F := Ideal) x0 x3 x4 xc xh x5 (ix2 p q)
      = outF x3 x4 x5 (fun k => x0 (ix2 p k)) (fun k => xh (ix2 p k)) (fun k => xc (ix2 p k)) q := by
  unfold k0_pay3 outF
  simp only [shapeCast_self]
  rw [mm3]
  refine Finset.sum_congr rfl fun k _ => ?_
  show k0_pay2 (F := Ideal) x0 x3 x4 xc xh (ix2 p k) * x5 (ix2 k q) = _
  rw [pay2_apply]

end Cert.KernelIdeal.Body

end
-- ==== Proof.Blocks.lean ====
/-
  From blocks to arrays: what the three output arrays of the folded kernel hold after the region.

  Grid point `t` works on physical rows `2048 t … 2048 t + 2047`: its input blocks are those rows of the three folded
  input arrays and the three whole weight matrices, and it writes back those rows of the three folded output arrays. The 64
  blocks tile each output array, so each array ends as ONE function of the arrays the region finds: physical row `r` of
  the cell, hidden and output arrays is the folded step of physical row `r` of the inputs.
-/
import proofs.«123711_j62886911148706_2_alg».proof.Proof.Gen.KernelIdeal.Frame
import proofs.«123711_j62886911148706_2_alg».proof.Proof.Body
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gated

variable (m : (ℓ : Loc nD τ sig) → Buf (Elt Ideal) ℓ)

theorem hz : (![0, 0] : Fin 2 → Nat) = fun _ => 0 := funext fun a => by fin_cases a <;> rfl

/-- The folded cell array: physical row `r`, position `q`. -/
def GF8 (v0 : FVec Ideal S131072x72 .f32) (v1 v2 : FVec Ideal S131072x256 .f32) (d1 : FVec Ideal S72x128 .bf16)
    (d2 : FVec Ideal S128x256 .bf16) : FVec Ideal S131072x256 .f32 :=
  fun i => cellF d1 d2 (fun k => v0 (ix2 (i 0) k)) (fun k => v1 (ix2 (i 0) k)) (fun k => v2 (ix2 (i 0) k)) (i 1)

/-- The folded hidden array. -/
def GF7 (v0 : FVec Ideal S131072x72 .f32) (v1 v2 : FVec Ideal S131072x256 .f32) (d1 : FVec Ideal S72x128 .bf16)
    (d2 : FVec Ideal S128x256 .bf16) : FVec Ideal S131072x256 .f32 :=
  fun i => hidF d1 d2 (fun k => v0 (ix2 (i 0) k)) (fun k => v1 (ix2 (i 0) k)) (fun k => v2 (ix2 (i 0) k)) (i 1)

/-- The folded output array. -/
def GF6 (v0 : FVec Ideal S131072x72 .f32) (v1 v2 : FVec Ideal S131072x256 .f32) (d1 : FVec Ideal S72x128 .bf16)
    (d2 : FVec Ideal S128x256 .bf16) (d3 : FVec Ideal S256x72 .bf16) : FVec Ideal S131072x72 .f32 :=
  fun i => outF d1 d2 d3 (fun k => v0 (ix2 (i 0) k)) (fun k => v1 (ix2 (i 0) k)) (fun k => v2 (ix2 (i 0) k)) (i 1)

/-- The row windows' block index at point `t` is `(t, 0)`. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) ∧ True :=
  (by decide +kernel : ∀ t : Fin grid0.N, _)

/-- The weight windows' block index is `(0, 0)` at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The output windows' block index at point `t` is `(t, 0)`. -/
theorem idx_outs : ∀ t : Fin cfg0.N,
    (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) ∧ True :=
  (by decide +kernel : ∀ t : Fin grid0.N, _)

/-! ## The input blocks at a point, as rows of the arrays the region finds -/

theorem read0 (c : Dev nD) (t : Fin cfg0.N) (p : Fin 2048) (k : Fin 72) (P : Fin 131072) (hP : P.val = t.val * 2048 + p.val) :
    iblk m c 0 t (ix2 p k) = V m c main_v0 (ix2 P k) := by
  show V m c main_v0 (((cfg0.win 0).blk t).view.emb (ix2 p k)) = V m c main_v0 (ix2 P k)
  have e : ((cfg0.win 0).blk t).view.emb (ix2 p k) = ix2 P k := by
    funext a; apply Fin.ext
    match a with
    | ⟨0, _⟩ =>
      show win0_0.index t (0 : Fin 2) * 2048 + 1 * p.val = P.val
      rw [(idx_rows t).1.1]; omega
    | ⟨1, _⟩ =>
      show win0_0.index t (1 : Fin 2) * 72 + 1 * k.val = k.val
      rw [(idx_rows t).1.2]; omega
  rw [e]

theorem read1 (c : Dev nD) (t : Fin cfg0.N) (p : Fin 2048) (k : Fin 256) (P : Fin 131072) (hP : P.val = t.val * 2048 + p.val) :
    iblk m c 1 t (ix2 p k) = V m c main_v1 (ix2 P k) := by
  show V m c main_v1 (((cfg0.win 1).blk t).view.emb (ix2 p k)) = V m c main_v1 (ix2 P k)
  have e : ((cfg0.win 1).blk t).view.emb (ix2 p k) = ix2 P k := by
    funext a; apply Fin.ext
    match a with
    | ⟨0, _⟩ =>
      show win0_1.index t (0 : Fin 2) * 2048 + 1 * p.val = P.val
      rw [(idx_rows t).2.1.1]; omega
    | ⟨1, _⟩ =>
      show win0_1.index t (1 : Fin 2) * 256 + 1 * k.val = k.val
      rw [(idx_rows t).2.1.2]; omega
  rw [e]

theorem read2 (c : Dev nD) (t : Fin cfg0.N) (p : Fin 2048) (k : Fin 256) (P : Fin 131072) (hP : P.val = t.val * 2048 + p.val) :
    iblk m c 2 t (ix2 p k) = V m c main_v2 (ix2 P k) := by
  show V m c main_v2 (((cfg0.win 2).blk t).view.emb (ix2 p k)) = V m c main_v2 (ix2 P k)
  have e : ((cfg0.win 2).blk t).view.emb (ix2 p k) = ix2 P k := by
    funext a; apply Fin.ext
    match a with
    | ⟨0, _⟩ =>
      show win0_2.index t (0 : Fin 2) * 2048 + 1 * p.val = P.val
      rw [(idx_rows t).2.2.1.1]; omega
    | ⟨1, _⟩ =>
      show win0_2.index t (1 : Fin 2) * 256 + 1 * k.val = k.val
      rw [(idx_rows t).2.2.1.2]; omega
  rw [e]

theorem whole3 (c : Dev nD) (t : Fin cfg0.N) : iblk m c 3 t = V m c main_v36 := by
  funext j
  obtain ⟨k, q, rfl⟩ : ∃ (k : Fin 72) (q : Fin 128), j = ix2 k q := ⟨j 0, j 1, eq_ix2 j⟩
  show V m c main_v36 (((cfg0.win 3).blk t).view.emb (ix2 k q)) = V m c main_v36 (ix2 k q)
  have e : ((cfg0.win 3).blk t).view.emb (ix2 k q) = ix2 k q := by
    funext a; apply Fin.ext
    match a with
    | ⟨0, _⟩ =>
      show win0_3.index t (0 : Fin 2) * 72 + 1 * k.val = k.val
      rw [(idx_whole t).1.1]; omega
    | ⟨1, _⟩ =>
      show win0_3.index t (1 : Fin 2) * 128 + 1 * q.val = q.val
      rw [(idx_whole t).1.2]; omega
  rw [e]

theorem whole4 (c : Dev nD) (t : Fin cfg0.N) : iblk m c 4 t = V m c main_v70 := by
  funext j
  obtain ⟨k, q, rfl⟩ : ∃ (k : Fin 128) (q : Fin 256), j = ix2 k q := ⟨j 0, j 1, eq_ix2 j⟩
  show V m c main_v70 (((cfg0.win 4).blk t).view.emb (ix2 k q)) = V m c main_v70 (ix2 k q)
  have e : ((cfg0.win 4).blk t).view.emb (ix2 k q) = ix2 k q := by
    funext a; apply Fin.ext
    match a with
    | ⟨0, _⟩ =>
      show win0_4.index t (0 : Fin 2) * 128 + 1 * k.val = k.val
      rw [(idx_whole t).2.1.1]; omega
    | ⟨1, _⟩ =>
      show win0_4.index t (1 : Fin 2) * 256 + 1 * q.val = q.val
      rw [(idx_whole t).2.1.2]; omega
  rw [e]

theorem whole5 (c : Dev nD) (t : Fin cfg0.N) : iblk m c 5 t = V m c main_v104 := by
  funext j
  obtain ⟨k, q, rfl⟩ : ∃ (k : Fin 256) (q : Fin 72), j = ix2 k q := ⟨j 0, j 1, eq_ix2 j⟩
  show V m c main_v104 (((cfg0.win 5).blk t).view.emb (ix2 k q)) = V m c main_v104 (ix2 k q)
  have e : ((cfg0.win 5).blk t).view.emb (ix2 k q) = ix2 k q := by
    funext a; apply Fin.ext
    match a with
    | ⟨0, _⟩ =>
      show win0_5.index t (0 : Fin 2) * 256 + 1 * k.val = k.val
      rw [(idx_whole t).2.2.1]; omega
    | ⟨1, _⟩ =>
      show win0_5.index t (1 : Fin 2) * 72 + 1 * q.val = q.val
      rw [(idx_whole t).2.2.2]; omega
  rw [e]

/-! ## The output windows -/

theorem emb8 (t : Fin cfg0.N) (p : Fin 2048) (q : Fin 256) (P : Fin 131072) (hP : P.val = t.val * 2048 + p.val) :
    ((cfg0.win 8).blk t).view.emb (ix2 p q) = ix2 P q := by
  funext a; apply Fin.ext
  match a with
  | ⟨0, _⟩ =>
    show win0_8.index t (0 : Fin 2) * 2048 + 1 * p.val = P.val
    rw [(idx_outs t).2.2.1.1]; omega
  | ⟨1, _⟩ =>
    show win0_8.index t (1 : Fin 2) * 256 + 1 * q.val = q.val
    rw [(idx_outs t).2.2.1.2]; omega

/-- What point `t` writes back through window 8 is block `t` of the folded step of the arrays as the region finds them. -/
theorem flushed8_eq (c : Dev nD) (t : Fin cfg0.N) :
    (dats m 0 c).flushed 8 t = ((cfg0.win 8).blk t).view.read (Elt Ideal) (GF8 (V m c main_v0) (V m c main_v1) (V m c main_v2) (V m c main_v36) (V m c main_v70)) := by
  show (cfg0.win 8).cut (grid0.coords t) ((dats m 0 c).after 8 t) = _
  rw [after0_8]
  unfold out0_8
  rw [View.canon_unit_zero hz]
  simp only [View.ld_unit_zero (S := S2048x72) hz, View.ld_unit_zero (S := S72x128) hz, View.ld_unit_zero (S := S128x256) hz,
    View.ld_unit_zero (S := S2048x256) hz, View.ld_unit_zero (S := S256x72) hz]
  funext j
  obtain ⟨p, q, rfl⟩ : ∃ (p : Fin 2048) (q : Fin 256), j = ix2 p q := ⟨j 0, j 1, eq_ix2 j⟩
  have hlt : t.val * 2048 + p.val < 131072 := by
    have h1 := t.isLt
    have h2 : cfg0.N = 64 := N_0
    omega
  show k0_pay1 (F := Ideal) (iblk m c 0 t) (iblk m c 3 t) (iblk m c 4 t) (iblk m c 2 t) (iblk m c 1 t) (ix2 p q) = GF8 (V m c main_v0) (V m c main_v1) (V m c main_v2) (V m c main_v36) (V m c main_v70) (((cfg0.win 8).blk t).view.emb (ix2 p q))
  rw [emb8 t p q ⟨t.val * 2048 + p.val, hlt⟩ rfl]
  refine (Body.pay1_apply _ _ _ _ _ p q).trans ?_
  unfold GF8
  rw [whole3 m c t, whole4 m c t]
  have e0 : (fun k => iblk m c 0 t (ix2 p k)) = fun k => V m c main_v0 (ix2 (⟨t.val * 2048 + p.val, hlt⟩ : Fin 131072) k) :=
    funext fun k => read0 m c t p k _ rfl
  have e1 : (fun k => iblk m c 1 t (ix2 p k)) = fun k => V m c main_v1 (ix2 (⟨t.val * 2048 + p.val, hlt⟩ : Fin 131072) k) :=
    funext fun k => read1 m c t p k _ rfl
  have e2 : (fun k => iblk m c 2 t (ix2 p k)) = fun k => V m c main_v2 (ix2 (⟨t.val * 2048 + p.val, hlt⟩ : Fin 131072) k) :=
    funext fun k => read2 m c t p k _ rfl
  rw [e0, e1, e2]

theorem mem_blk8 (t : Fin cfg0.N) (i : S131072x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v105_2).slice (win0_8.rect t)).set ↔ _
  rw [View.set_slice_whole, Rect.mem_set_unit]
  exact Iff.rfl

/-- The blocks of window 8 tile its array: row `r` is in the block of point `r / 2048`. -/
theorem cover8 (i : S131072x256.Idx) : ∃ t : Fin cfg0.N, (cfg0.win 8).flush t = true ∧ i ∈ ((cfg0.win 8).blk t).view.set := by
  have hi0 : (i 0).val < 131072 := (i 0).isLt
  have hi1 : (i 1).val < 256 := (i 1).isLt
  have hN : (i 0).val / 2048 < cfg0.N := by
    have h2 : cfg0.N = 64 := N_0
    omega
  refine ⟨⟨(i 0).val / 2048, hN⟩, flush0_8 _, ?_⟩
  rw [mem_blk8]
  intro a
  match a with
  | ⟨0, _⟩ =>
    show win0_8.index ⟨(i 0).val / 2048, hN⟩ (0 : Fin 2) * 2048 ≤ (i 0).val ∧ (i 0).val < win0_8.index ⟨(i 0).val / 2048, hN⟩ (0 : Fin 2) * 2048 + 2048
    rw [(idx_outs ⟨(i 0).val / 2048, hN⟩).2.2.1.1]
    show (i 0).val / 2048 * 2048 ≤ (i 0).val ∧ (i 0).val < (i 0).val / 2048 * 2048 + 2048
    omega
  | ⟨1, _⟩ =>
    show win0_8.index ⟨(i 0).val / 2048, hN⟩ (1 : Fin 2) * 256 ≤ (i 1).val ∧ (i 1).val < win0_8.index ⟨(i 0).val / 2048, hN⟩ (1 : Fin 2) * 256 + 256
    rw [(idx_outs ⟨(i 0).val / 2048, hN⟩).2.2.1.2]
    omega

/-- Window 8's array after the region. -/
theorem final8 (c : Dev nD) : (dats m 0 c).arrAt 8 cfg0.N = GF8 (V m c main_v0) (V m c main_v1) (V m c main_v2) (V m c main_v36) (V m c main_v70) :=
  (dats m 0 c).arrAt_eq_of_cover 8 (GF8 (V m c main_v0) (V m c main_v1) (V m c main_v2) (V m c main_v36) (V m c main_v70)) (fun t _ => flushed8_eq m c t) cover8

theorem emb7 (t : Fin cfg0.N) (p : Fin 2048) (q : Fin 256) (P : Fin 131072) (hP : P.val = t.val * 2048 + p.val) :
    ((cfg0.win 7).blk t).view.emb (ix2 p q) = ix2 P q := by
  funext a; apply Fin.ext
  match a with
  | ⟨0, _⟩ =>
    show win0_7.index t (0 : Fin 2) * 2048 + 1 * p.val = P.val
    rw [(idx_outs t).2.1.1]; omega
  | ⟨1, _⟩ =>
    show win0_7.index t (1 : Fin 2) * 256 + 1 * q.val = q.val
    rw [(idx_outs t).2.1.2]; omega

/-- What point `t` writes back through window 7 is block `t` of the folded step of the arrays as the region finds them. -/
theorem flushed7_eq (c : Dev nD) (t : Fin cfg0.N) :
    (dats m 0 c).flushed 7 t = ((cfg0.win 7).blk t).view.read (Elt Ideal) (GF7 (V m c main_v0) (V m c main_v1) (V m c main_v2) (V m c main_v36) (V m c main_v70)) := by
  show (cfg0.win 7).cut (grid0.coords t) ((dats m 0 c).after 7 t) = _
  rw [after0_7]
  unfold out0_7
  rw [View.canon_unit_zero hz]
  simp only [View.ld_unit_zero (S := S2048x72) hz, View.ld_unit_zero (S := S72x128) hz, View.ld_unit_zero (S := S128x256) hz,
    View.ld_unit_zero (S := S2048x256) hz, View.ld_unit_zero (S := S256x72) hz]
  funext j
  obtain ⟨p, q, rfl⟩ : ∃ (p : Fin 2048) (q : Fin 256), j = ix2 p q := ⟨j 0, j 1, eq_ix2 j⟩
  have hlt : t.val * 2048 + p.val < 131072 := by
    have h1 := t.isLt
    have h2 : cfg0.N = 64 := N_0
    omega
  show k0_pay2 (F := Ideal) (iblk m c 0 t) (iblk m c 3 t) (iblk m c 4 t) (iblk m c 2 t) (iblk m c 1 t) (ix2 p q) = GF7 (V m c main_v0) (V m c main_v1) (V m c main_v2) (V m c main_v36) (V m c main_v70) (((cfg0.win 7).blk t).view.emb (ix2 p q))
  rw [emb7 t p q ⟨t.val * 2048 + p.val, hlt⟩ rfl]
  refine (Body.pay2_apply _ _ _ _ _ p q).trans ?_
  unfold GF7
  rw [whole3 m c t, whole4 m c t]
  have e0 : (fun k => iblk m c 0 t (ix2 p k)) = fun k => V m c main_v0 (ix2 (⟨t.val * 2048 + p.val, hlt⟩ : Fin 131072) k) :=
    funext fun k => read0 m c t p k _ rfl
  have e1 : (fun k => iblk m c 1 t (ix2 p k)) = fun k => V m c main_v1 (ix2 (⟨t.val * 2048 + p.val, hlt⟩ : Fin 131072) k) :=
    funext fun k => read1 m c t p k _ rfl
  have e2 : (fun k => iblk m c 2 t (ix2 p k)) = fun k => V m c main_v2 (ix2 (⟨t.val * 2048 + p.val, hlt⟩ : Fin 131072) k) :=
    funext fun k => read2 m c t p k _ rfl
  rw [e0, e1, e2]

theorem mem_blk7 (t : Fin cfg0.N) (i : S131072x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v105_1).slice (win0_7.rect t)).set ↔ _
  rw [View.set_slice_whole, Rect.mem_set_unit]
  exact Iff.rfl

/-- The blocks of window 7 tile its array: row `r` is in the block of point `r / 2048`. -/
theorem cover7 (i : S131072x256.Idx) : ∃ t : Fin cfg0.N, (cfg0.win 7).flush t = true ∧ i ∈ ((cfg0.win 7).blk t).view.set := by
  have hi0 : (i 0).val < 131072 := (i 0).isLt
  have hi1 : (i 1).val < 256 := (i 1).isLt
  have hN : (i 0).val / 2048 < cfg0.N := by
    have h2 : cfg0.N = 64 := N_0
    omega
  refine ⟨⟨(i 0).val / 2048, hN⟩, flush0_7 _, ?_⟩
  rw [mem_blk7]
  intro a
  match a with
  | ⟨0, _⟩ =>
    show win0_7.index ⟨(i 0).val / 2048, hN⟩ (0 : Fin 2) * 2048 ≤ (i 0).val ∧ (i 0).val < win0_7.index ⟨(i 0).val / 2048, hN⟩ (0 : Fin 2) * 2048 + 2048
    rw [(idx_outs ⟨(i 0).val / 2048, hN⟩).2.1.1]
    show (i 0).val / 2048 * 2048 ≤ (i 0).val ∧ (i 0).val < (i 0).val / 2048 * 2048 + 2048
    omega
  | ⟨1, _⟩ =>
    show win0_7.index ⟨(i 0).val / 2048, hN⟩ (1 : Fin 2) * 256 ≤ (i 1).val ∧ (i 1).val < win0_7.index ⟨(i 0).val / 2048, hN⟩ (1 : Fin 2) * 256 + 256
    rw [(idx_outs ⟨(i 0).val / 2048, hN⟩).2.1.2]
    omega

/-- Window 7's array after the region. -/
theorem final7 (c : Dev nD) : (dats m 0 c).arrAt 7 cfg0.N = GF7 (V m c main_v0) (V m c main_v1) (V m c main_v2) (V m c main_v36) (V m c main_v70) :=
  (dats m 0 c).arrAt_eq_of_cover 7 (GF7 (V m c main_v0) (V m c main_v1) (V m c main_v2) (V m c main_v36) (V m c main_v70)) (fun t _ => flushed7_eq m c t) cover7

theorem emb6 (t : Fin cfg0.N) (p : Fin 2048) (q : Fin 72) (P : Fin 131072) (hP : P.val = t.val * 2048 + p.val) :
    ((cfg0.win 6).blk t).view.emb (ix2 p q) = ix2 P q := by
  funext a; apply Fin.ext
  match a with
  | ⟨0, _⟩ =>
    show win0_6.index t (0 : Fin 2) * 2048 + 1 * p.val = P.val
    rw [(idx_outs t).1.1]; omega
  | ⟨1, _⟩ =>
    show win0_6.index t (1 : Fin 2) * 72 + 1 * q.val = q.val
    rw [(idx_outs t).1.2]; omega

/-- What point `t` writes back through window 6 is block `t` of the folded step of the arrays as the region finds them. -/
theorem flushed6_eq (c : Dev nD) (t : Fin cfg0.N) :
    (dats m 0 c).flushed 6 t = ((cfg0.win 6).blk t).view.read (Elt Ideal) (GF6 (V m c main_v0) (V m c main_v1) (V m c main_v2) (V m c main_v36) (V m c main_v70) (V m c main_v104)) := by
  show (cfg0.win 6).cut (grid0.coords t) ((dats m 0 c).after 6 t) = _
  rw [after0_6]
  unfold out0_6
  rw [View.canon_unit_zero hz]
  simp only [View.ld_unit_zero (S := S2048x72) hz, View.ld_unit_zero (S := S72x128) hz, View.ld_unit_zero (S := S128x256) hz,
    View.ld_unit_zero (S := S2048x256) hz, View.ld_unit_zero (S := S256x72) hz]
  funext j
  obtain ⟨p, q, rfl⟩ : ∃ (p : Fin 2048) (q : Fin 72), j = ix2 p q := ⟨j 0, j 1, eq_ix2 j⟩
  have hlt : t.val * 2048 + p.val < 131072 := by
    have h1 := t.isLt
    have h2 : cfg0.N = 64 := N_0
    omega
  show k0_pay3 (F := Ideal) (iblk m c 0 t) (iblk m c 3 t) (iblk m c 4 t) (iblk m c 2 t) (iblk m c 1 t) (iblk m c 5 t) (ix2 p q) = GF6 (V m c main_v0) (V m c main_v1) (V m c main_v2) (V m c main_v36) (V m c main_v70) (V m c main_v104) (((cfg0.win 6).blk t).view.emb (ix2 p q))
  rw [emb6 t p q ⟨t.val * 2048 + p.val, hlt⟩ rfl]
  refine (Body.pay3_apply _ _ _ _ _ _ p q).trans ?_
  unfold GF6
  rw [whole3 m c t, whole4 m c t, whole5 m c t]
  have e0 : (fun k => iblk m c 0 t (ix2 p k)) = fun k => V m c main_v0 (ix2 (⟨t.val * 2048 + p.val, hlt⟩ : Fin 131072) k) :=
    funext fun k => read0 m c t p k _ rfl
  have e1 : (fun k => iblk m c 1 t (ix2 p k)) = fun k => V m c main_v1 (ix2 (⟨t.val * 2048 + p.val, hlt⟩ : Fin 131072) k) :=
    funext fun k => read1 m c t p k _ rfl
  have e2 : (fun k => iblk m c 2 t (ix2 p k)) = fun k => V m c main_v2 (ix2 (⟨t.val * 2048 + p.val, hlt⟩ : Fin 131072) k) :=
    funext fun k => read2 m c t p k _ rfl
  rw [e0, e1, e2]

theorem mem_blk6 (t : Fin cfg0.N) (i : S131072x72.Idx) :
    i ∈ ((cfg0.win 6).blk t).view.set ↔ ∀ a : Fin 2, win0_6.index t a * S2048x72.size a ≤ (i a).val ∧ (i a).val < win0_6.index t a * S2048x72.size a + S2048x72.size a := by
  show i ∈ ((View.whole main_v105_0).slice (win0_6.rect t)).set ↔ _
  rw [View.set_slice_whole, Rect.mem_set_unit]
  exact Iff.rfl

/-- The blocks of window 6 tile its array: row `r` is in the block of point `r / 2048`. -/
theorem cover6 (i : S131072x72.Idx) : ∃ t : Fin cfg0.N, (cfg0.win 6).flush t = true ∧ i ∈ ((cfg0.win 6).blk t).view.set := by
  have hi0 : (i 0).val < 131072 := (i 0).isLt
  have hi1 : (i 1).val < 72 := (i 1).isLt
  have hN : (i 0).val / 2048 < cfg0.N := by
    have h2 : cfg0.N = 64 := N_0
    omega
  refine ⟨⟨(i 0).val / 2048, hN⟩, flush0_6 _, ?_⟩
  rw [mem_blk6]
  intro a
  match a with
  | ⟨0, _⟩ =>
    show win0_6.index ⟨(i 0).val / 2048, hN⟩ (0 : Fin 2) * 2048 ≤ (i 0).val ∧ (i 0).val < win0_6.index ⟨(i 0).val / 2048, hN⟩ (0 : Fin 2) * 2048 + 2048
    rw [(idx_outs ⟨(i 0).val / 2048, hN⟩).1.1]
    show (i 0).val / 2048 * 2048 ≤ (i 0).val ∧ (i 0).val < (i 0).val / 2048 * 2048 + 2048
    omega
  | ⟨1, _⟩ =>
    show win0_6.index ⟨(i 0).val / 2048, hN⟩ (1 : Fin 2) * 72 ≤ (i 1).val ∧ (i 1).val < win0_6.index ⟨(i 0).val / 2048, hN⟩ (1 : Fin 2) * 72 + 72
    rw [(idx_outs ⟨(i 0).val / 2048, hN⟩).1.2]
    omega

/-- Window 6's array after the region. -/
theorem final6 (c : Dev nD) : (dats m 0 c).arrAt 6 cfg0.N = GF6 (V m c main_v0) (V m c main_v1) (V m c main_v2) (V m c main_v36) (V m c main_v70) (V m c main_v104) :=
  (dats m 0 c).arrAt_eq_of_cover 6 (GF6 (V m c main_v0) (V m c main_v1) (V m c main_v2) (V m c main_v36) (V m c main_v70) (V m c main_v104)) (fun t _ => flushed6_eq m c t) cover6

end Cert.KernelIdeal.Blocks

end
-- ==== Proof.Fold.lean ====
/-
  Unfolding: the folded arrays, reshaped back to logical rows, are the step's result arrays.

  Logical row `n` sits in physical row `n / 8`, slot `n % 8`: a row-major reshape moves entry `(n, j)` of a `[1048576, C]`
  array to entry `(n / 8, (n % 8) * C + j)` of the `[131072, 8 C]` array and back. With block-diagonal weights the folded step
  in slot `n % 8` of physical row `n / 8` is the logical step of row `n` (`Cert.Gated.cellF_eq`, `hidF_eq`, `outF_eq`).
-/
import proofs.«123711_j62886911148706_2_alg».proof.Proof.Blocks
import proofs.«123711_j62886911148706_2_alg».proof.Proof.Spec
import Idealize.ShloMosaic.Lib.Pipeline.Value

noncomputable section

namespace Cert.KernelIdeal.Fold

open Idealize.ShloMosaic Idealize.ShloMosaic.ValueIdx Idealize.ShloMosaic.Pipeline
open Cert.KernelIdeal Cert.KernelIdeal.Blocks Cert.Gated

/-- Entry `(R, k)` of the folded input array is entry `(n, j)` of the logical one when both have one row-major position. -/
theorem fold_x (x : FVec Ideal S1048576x9 .f32) (h : S1048576x9.ShapeCasts S131072x72) (R : Fin 131072) (k : Fin 72)
    (n : Fin 1048576) (j : Fin 9) (hk : R.val * 72 + k.val = n.val * 9 + j.val) :
    shapeCast S131072x72 x h (ix2 R k) = x (ix2 n j) :=
  shapeCast_apply x h (ix2 R k) (ix2 n j) (by
    rw [Shape.rowMajor_val_two, Shape.rowMajor_val_two]
    show n.val * 9 + j.val = R.val * 72 + k.val
    omega)

/-- The same for the two 32-wide arrays. -/
theorem fold_h (x : FVec Ideal S1048576x32 .f32) (h : S1048576x32.ShapeCasts S131072x256) (R : Fin 131072) (k : Fin 256)
    (n : Fin 1048576) (j : Fin 32) (hk : R.val * 256 + k.val = n.val * 32 + j.val) :
    shapeCast S131072x256 x h (ix2 R k) = x (ix2 n j) :=
  shapeCast_apply x h (ix2 R k) (ix2 n j) (by
    rw [Shape.rowMajor_val_two, Shape.rowMajor_val_two]
    show n.val * 32 + j.val = R.val * 256 + k.val
    omega)

section
variable (x : FVec Ideal S1048576x9 .f32) (oh oc : FVec Ideal S1048576x32 .f32)
  {w1 : FVec Ideal S9x16 .f32} {w2 : FVec Ideal S16x32 .f32} {w3 : FVec Ideal S32x9 .f32}
  {d1 : FVec Ideal S72x128 .bf16} {d2 : FVec Ideal S128x256 .bf16} {d3 : FVec Ideal S256x72 .bf16}
  (h1 : IsDiag 9 16 d1 w1) (h2 : IsDiag 16 32 d2 w2) (h3 : IsDiag 32 9 d3 w3)
  (hx : S1048576x9.ShapeCasts S131072x72) (hh : S1048576x32.ShapeCasts S131072x256)

include h1 h2 in
theorem unfold_cell (hout : S131072x256.ShapeCasts S1048576x32) :
    shapeCast S1048576x32 (GF8 (shapeCast S131072x72 x hx) (shapeCast S131072x256 oh hh) (shapeCast S131072x256 oc hh) d1 d2) hout
      = Gcell x oh oc w1 w2 := by
  funext i
  obtain ⟨n, b, rfl⟩ : ∃ (n : Fin 1048576) (b : Fin 32), i = ix2 n b := ⟨i 0, i 1, eq_ix2 i⟩
  have hn := n.isLt
  have hb := b.isLt
  have hR : n.val / 8 < 131072 := by omega
  have hq : n.val % 8 * 32 + b.val < 256 := by omega
  rw [shapeCast_apply _ hout (ix2 n b) (ix2 (⟨n.val / 8, hR⟩ : Fin 131072) (⟨n.val % 8 * 32 + b.val, hq⟩ : Fin 256)) (by
    rw [Shape.rowMajor_val_two, Shape.rowMajor_val_two]
    show n.val / 8 * 256 + (n.val % 8 * 32 + b.val) = n.val * 32 + b.val
    omega)]
  unfold GF8 Gcell
  exact cellF_eq h1 h2 (s := n.val % 8) (by omega)
    (fun k j hk => fold_x x hx _ k n j (by show n.val / 8 * 72 + k.val = n.val * 9 + j.val; omega))
    (fun k j hk => fold_h oh hh _ k n j (by show n.val / 8 * 256 + k.val = n.val * 32 + j.val; omega))
    (fun k j hk => fold_h oc hh _ k n j (by show n.val / 8 * 256 + k.val = n.val * 32 + j.val; omega))
    ⟨n.val % 8 * 32 + b.val, hq⟩ b rfl

include h1 h2 in
theorem unfold_hid (hout : S131072x256.ShapeCasts S1048576x32) :
    shapeCast S1048576x32 (GF7 (shapeCast S131072x72 x hx) (shapeCast S131072x256 oh hh) (shapeCast S131072x256 oc hh) d1 d2) hout
      = Ghid x oh oc w1 w2 := by
  funext i
  obtain ⟨n, b, rfl⟩ : ∃ (n : Fin 1048576) (b : Fin 32), i = ix2 n b := ⟨i 0, i 1, eq_ix2 i⟩
  have hn := n.isLt
  have hb := b.isLt
  have hR : n.val / 8 < 131072 := by omega
  have hq : n.val % 8 * 32 + b.val < 256 := by omega
  rw [shapeCast_apply _ hout (ix2 n b) (ix2 (⟨n.val / 8, hR⟩ : Fin 131072) (⟨n.val % 8 * 32 + b.val, hq⟩ : Fin 256)) (by
    rw [Shape.rowMajor_val_two, Shape.rowMajor_val_two]
    show n.val / 8 * 256 + (n.val % 8 * 32 + b.val) = n.val * 32 + b.val
    omega)]
  unfold GF7 Ghid
  exact hidF_eq h1 h2 (s := n.val % 8) (by omega)
    (fun k j hk => fold_x x hx _ k n j (by show n.val / 8 * 72 + k.val = n.val * 9 + j.val; omega))
    (fun k j hk => fold_h oh hh _ k n j (by show n.val / 8 * 256 + k.val = n.val * 32 + j.val; omega))
    (fun k j hk => fold_h oc hh _ k n j (by show n.val / 8 * 256 + k.val = n.val * 32 + j.val; omega))
    ⟨n.val % 8 * 32 + b.val, hq⟩ b rfl

include h1 h2 h3 in
theorem unfold_out (hout : S131072x72.ShapeCasts S1048576x9) :
    shapeCast S1048576x9 (GF6 (shapeCast S131072x72 x hx) (shapeCast S131072x256 oh hh) (shapeCast S131072x256 oc hh) d1 d2 d3) hout
      = Gout x oh oc w1 w2 w3 := by
  funext i
  obtain ⟨n, o, rfl⟩ : ∃ (n : Fin 1048576) (o : Fin 9), i = ix2 n o := ⟨i 0, i 1, eq_ix2 i⟩
  have hn := n.isLt
  have ho := o.isLt
  have hR : n.val / 8 < 131072 := by omega
  have hq : n.val % 8 * 9 + o.val < 72 := by omega
  rw [shapeCast_apply _ hout (ix2 n o) (ix2 (⟨n.val / 8, hR⟩ : Fin 131072) (⟨n.val % 8 * 9 + o.val, hq⟩ : Fin 72)) (by
    rw [Shape.rowMajor_val_two, Shape.rowMajor_val_two]
    show n.val / 8 * 72 + (n.val % 8 * 9 + o.val) = n.val * 9 + o.val
    omega)]
  unfold GF6 Gout
  exact outF_eq h1 h2 h3 (s := n.val % 8) (by omega)
    (fun k j hk => fold_x x hx _ k n j (by show n.val / 8 * 72 + k.val = n.val * 9 + j.val; omega))
    (fun k j hk => fold_h oh hh _ k n j (by show n.val / 8 * 256 + k.val = n.val * 32 + j.val; omega))
    (fun k j hk => fold_h oc hh _ k n j (by show n.val / 8 * 256 + k.val = n.val * 32 + j.val; omega))
    ⟨n.val % 8 * 9 + o.val, hq⟩ o rfl

end

end Cert.KernelIdeal.Fold

end
-- ==== Proof.Result.lean ====
/-
  The kernel's three results as functions of its arguments.

  After the region the three folded output arrays hold the folded step of the arrays the region found (the blocks tile
  them); the region found the inputs folded and the weights block diagonal; the lines after the region reshape each folded
  array back to logical rows. So each result is the step's array of the arguments, logical row by logical row.
-/
import proofs.«123711_j62886911148706_2_alg».proof.Proof.Host1
import proofs.«123711_j62886911148706_2_alg».proof.Proof.Host2
import proofs.«123711_j62886911148706_2_alg».proof.Proof.Host3
import proofs.«123711_j62886911148706_2_alg».proof.Proof.Blocks
import proofs.«123711_j62886911148706_2_alg».proof.Proof.Fold

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.Blocks Cert.Gated

variable (m : (ℓ : Loc nD τ sig) → Buf (Elt Ideal) ℓ) (ρ : Dev nD → PrngReg)

/-- Result `main_v108` after the lines that follow the region. -/
theorem tail_cell (c : Dev nD) :
    Pipeline.afterTail₀ cfgs (dats m) 0 (V0 m) [hostOps1] c main_v108 = Gcell (m ((c : Thread nD τ).loc main_arg0)) (m ((c : Thread nD τ).loc main_arg1)) (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N)
      (Proc.devRef .tc (Pipeline.arrRef spec0 8)) = GF8 (V m c main_v0) (V m c main_v1) (V m c main_v2) (V m c main_v36) (V m c main_v70) :=
    (Pipeline.withArrays_arr spec0 launch0.win.arr_inj c _ _ 8).trans (Blocks.final8 m c)
  have e1 : Pipeline.afterTail₀ cfgs (dats m) 0 (V0 m) [hostOps1] c main_v108
      = shapeCast S1048576x32 (GF8 (V m c main_v0) (V m c main_v1) (V m c main_v2) (V m c main_v36) (V m c main_v70)) shapeCasts_S131072x256_S1048576x32 := by
    unfold Pipeline.afterTail₀
    show StableHlo.after hostOps1 _ (Proc.devRef .tc main_v108) = _
    after_results
    rw [← e]
    rfl
  rw [e1, Host.V_v0 m c, Host.V_v1 m c, Host.V_v2 m c]
  exact Fold.unfold_cell _ _ _ (Host.diag1 m c) (Host.diag2 m c) _ _ _

/-- Result `main_v107` after the lines that follow the region. -/
theorem tail_hid (c : Dev nD) :
    Pipeline.afterTail₀ cfgs (dats m) 0 (V0 m) [hostOps1] c main_v107 = Ghid (m ((c : Thread nD τ).loc main_arg0)) (m ((c : Thread nD τ).loc main_arg1)) (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N)
      (Proc.devRef .tc (Pipeline.arrRef spec0 7)) = GF7 (V m c main_v0) (V m c main_v1) (V m c main_v2) (V m c main_v36) (V m c main_v70) :=
    (Pipeline.withArrays_arr spec0 launch0.win.arr_inj c _ _ 7).trans (Blocks.final7 m c)
  have e1 : Pipeline.afterTail₀ cfgs (dats m) 0 (V0 m) [hostOps1] c main_v107
      = shapeCast S1048576x32 (GF7 (V m c main_v0) (V m c main_v1) (V m c main_v2) (V m c main_v36) (V m c main_v70)) shapeCasts_S131072x256_S1048576x32 := by
    unfold Pipeline.afterTail₀
    show StableHlo.after hostOps1 _ (Proc.devRef .tc main_v107) = _
    after_results
    rw [← e]
    rfl
  rw [e1, Host.V_v0 m c, Host.V_v1 m c, Host.V_v2 m c]
  exact Fold.unfold_hid _ _ _ (Host.diag1 m c) (Host.diag2 m c) _ _ _

/-- Result `main_v106` after the lines that follow the region. -/
theorem tail_out (c : Dev nD) :
    Pipeline.afterTail₀ cfgs (dats m) 0 (V0 m) [hostOps1] c main_v106 = Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : Pipeline.withArrays (cfgs 0).spec c (V0 m c) (fun w => (dats m 0 c).arrAt w (cfgs 0).N)
      (Proc.devRef .tc (Pipeline.arrRef spec0 6)) = GF6 (V m c main_v0) (V m c main_v1) (V m c main_v2) (V m c main_v36) (V m c main_v70) (V m c main_v104) :=
    (Pipeline.withArrays_arr spec0 launch0.win.arr_inj c _ _ 6).trans (Blocks.final6 m c)
  have e1 : Pipeline.afterTail₀ cfgs (dats m) 0 (V0 m) [hostOps1] c main_v106
      = shapeCast S1048576x9 (GF6 (V m c main_v0) (V m c main_v1) (V m c main_v2) (V m c main_v36) (V m c main_v70) (V m c main_v104)) shapeCasts_S131072x72_S1048576x9 := by
    unfold Pipeline.afterTail₀
    show StableHlo.after hostOps1 _ (Proc.devRef .tc main_v106) = _
    after_results
    rw [← e]
    rfl
  rw [e1, Host.V_v0 m c, Host.V_v1 m c, Host.V_v2 m c]
  exact Fold.unfold_out _ _ _ (Host.diag1 m c) (Host.diag2 m c) (Host.diag3 m c) _ _ _

/-- Every weakly fair execution of the kernel's program ends with the three results at the step's arrays of the
    arguments and the arguments unchanged. -/
theorem run : θ_run defs (onTc (τ := τ) (main (F := Ideal))) ⟨m, fun _ => 0, ρ⟩ (fun r => ∀ c : Dev nD,
      r.2.mem ((c.tc : Thread nD τ).loc main_v106) = Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v107) = Ghid (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v108) = Gcell (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v106 (Pipeline.mem_restRefs_of main_v106 (by decide) (by decide))).trans (tail_out m c),
      ((h c).2 main_v107 (Pipeline.mem_restRefs_of main_v107 (by decide) (by decide))).trans (tail_hid m c),
      ((h c).2 main_v108 (Pipeline.mem_restRefs_of main_v108 (by decide) (by decide))).trans (tail_cell m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.Ref.lean ====
/-
  The reference's three results, read at an entry: logical row `n` of each is the gated step of row `n` of the inputs.

  The reference spells the logistic function as 1 / (1 + exp (-x)); on the extended reals that expression IS the logistic
  function, and the f32 word of 1.0 is the number one.
-/
import proofs.«123711_j62886911148706_2_alg».proof.Proof.Gen.ReferenceIdeal.Read
import proofs.«123711_j62886911148706_2_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Read Cert.Gated

variable (x0 : FVec Ideal S1048576x9 .f32) (x1 x2 : FVec Ideal S1048576x32 .f32) (x3 : FVec Ideal S9x16 .f32)
  (x4 : FVec Ideal S16x32 .f32) (x5 : FVec Ideal S32x9 .f32)

theorem pre_at (n : Fin 1048576) (a : Fin 16) :
    val_main_v1 (F := Ideal) x0 x3 (ix2 n a) = preR x3 (fun j => x0 (ix2 n j)) a := by
  rw [val_main_v1_apply, val_main_v0_apply]
  unfold preR
  have el : ∀ k : Fin 9, lidx_main_v0 (ix2 n a) k = ix2 n k := fun k =>
    funext fun c => by match c with | ⟨0, _⟩ => rfl | ⟨1, _⟩ => rfl
  have er : ∀ k : Fin 9, ridx_main_v0 (ix2 n a) k = ix2 k a := fun k =>
    funext fun c => by match c with | ⟨0, _⟩ => rfl | ⟨1, _⟩ => rfl
  simp only [el, er]
  rfl

theorem lin_at (n : Fin 1048576) (b : Fin 32) :
    val_main_v2 (F := Ideal) x0 x3 x4 (ix2 n b) = linR x3 x4 (fun j => x0 (ix2 n j)) b := by
  rw [val_main_v2_apply]
  unfold linR
  have el : ∀ k : Fin 16, lidx_main_v2 (ix2 n b) k = ix2 n k := fun k =>
    funext fun c => by match c with | ⟨0, _⟩ => rfl | ⟨1, _⟩ => rfl
  have er : ∀ k : Fin 16, ridx_main_v2 (ix2 n b) k = ix2 k b := fun k =>
    funext fun c => by match c with | ⟨0, _⟩ => rfl | ⟨1, _⟩ => rfl
  simp only [el, er, pre_at]

theorem cell_at (n : Fin 1048576) (b : Fin 32) :
    val_main_v16 (F := Ideal) x0 x1 x2 x3 x4 (ix2 n b)
      = cellR x3 x4 (fun j => x0 (ix2 n j)) (fun q => x1 (ix2 n q)) (fun q => x2 (ix2 n q)) b := by
  simp only [val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_cst_apply, val_main_cst_0_apply,
    val_main_cst_1_apply, lin_at]
  unfold cellR gate Ideal.logistic
  simp only [Ideal.addf_def, Ideal.subf_def, Ideal.mulf_def, Ideal.hostDivf_def, Ideal.hostUnary_exp_def,
    Ideal.hostUnary_tanh_def, Ideal.hostNegf_def, Ideal.negf_def, Ideal.ofBits_def, Ideal.ofBits_one_f32]

theorem hid_at (n : Fin 1048576) (b : Fin 32) :
    val_main_v17 (F := Ideal) x0 x1 x2 x3 x4 (ix2 n b)
      = hidR x3 x4 (fun j => x0 (ix2 n j)) (fun q => x1 (ix2 n q)) (fun q => x2 (ix2 n q)) b := by
  rw [val_main_v17_apply, cell_at]
  rfl

theorem out_at (n : Fin 1048576) (o : Fin 9) :
    val_main_v18 (F := Ideal) x0 x1 x2 x3 x4 x5 (ix2 n o)
      = outR x3 x4 x5 (fun j => x0 (ix2 n j)) (fun q => x1 (ix2 n q)) (fun q => x2 (ix2 n q)) o := by
  rw [val_main_v18_apply]
  unfold outR
  have el : ∀ k : Fin 32, lidx_main_v18 (ix2 n o) k = ix2 n k := fun k =>
    funext fun c => by match c with | ⟨0, _⟩ => rfl | ⟨1, _⟩ => rfl
  have er : ∀ k : Fin 32, ridx_main_v18 (ix2 n o) k = ix2 k o := fun k =>
    funext fun c => by match c with | ⟨0, _⟩ => rfl | ⟨1, _⟩ => rfl
  simp only [el, er, hid_at]

/-- The reference's cell result is the cell array of the step. -/
theorem cell_eq : val_main_v16 (F := Ideal) x0 x1 x2 x3 x4 = Gcell x0 x1 x2 x3 x4 := by
  funext i
  obtain ⟨n, b, rfl⟩ : ∃ (n : Fin 1048576) (b : Fin 32), i = ix2 n b := ⟨i 0, i 1, eq_ix2 i⟩
  exact cell_at x0 x1 x2 x3 x4 n b

theorem hid_eq : val_main_v17 (F := Ideal) x0 x1 x2 x3 x4 = Ghid x0 x1 x2 x3 x4 := by
  funext i
  obtain ⟨n, b, rfl⟩ : ∃ (n : Fin 1048576) (b : Fin 32), i = ix2 n b := ⟨i 0, i 1, eq_ix2 i⟩
  exact hid_at x0 x1 x2 x3 x4 n b

theorem out_eq : val_main_v18 (F := Ideal) x0 x1 x2 x3 x4 x5 = Gout x0 x1 x2 x3 x4 x5 := by
  funext i
  obtain ⟨n, o, rfl⟩ : ∃ (n : Fin 1048576) (o : Fin 9), i = ix2 n o := ⟨i 0, i 1, eq_ix2 i⟩
  exact out_at x0 x1 x2 x3 x4 x5 n o

end Cert.ReferenceIdeal.RefValue

end
-- ==== Proof.lean ====
/-
  One gated recurrent step over 1048576 rows: a kernel that folds eight rows into one lane-dense row, against the plain
  row-by-row reference.

  The step. Row `n` carries 9 inputs `x`, 32 old hidden values and 32 old cell values; with weights w1 [9,16], w2 [16,32],
  w3 [32,9]:  pre = tanh (x · w1),  z = pre · w2,  f = logistic (z + old_cell),  cell = f * old_cell + (1 - f) * tanh (z + old_h),
  hid = tanh cell,  out = hid · w3.  The reference computes exactly this on the whole arrays (its logistic is spelt
  1 / (1 + exp (-x)), which is the logistic function on the extended reals).

  The kernel reshapes each input so that physical row `r` holds logical rows `8 r … 8 r + 7` side by side, builds for each
  weight matrix the matrix with eight copies of it down the diagonal and zero elsewhere, runs the same three products and
  the same gating on blocks of 2048 physical rows, and reshapes the three results back. At the ideal values a change of
  float format is the identity and a matrix product is the plain sum over the contracted axis. A column of a block-diagonal
  matrix vanishes outside one diagonal block, and `x * 0 = 0` for every extended real, so the folded product in slot `s` of
  physical row `r` is the logical product of row `8 r + s`: the two programs compute the same three arrays, entry by
  entry. Finiteness of the inputs is not used.

  The modules: `Spec` (the step, its folded form, the block-diagonal law), `Body` (the kernel body's stored values at an
  entry), `Blocks` (the output arrays after the region, from the blocks), `LibBlockWrite`, `Weights`, `HostLib`,
  `Host1`–`Host3` (what the region finds: folded inputs, block-diagonal weights), `Fold` (reshaping back), `Result` (the
  kernel's run), `Ref` (the reference's results at an entry).
-/
import proofs.«123711_j62886911148706_2_alg».proof.Defs
import proofs.«123711_j62886911148706_2_alg».proof.Proof.Gen.Kernel
import proofs.«123711_j62886911148706_2_alg».proof.Proof.Gen.Kernel.Skeleton
import proofs.«123711_j62886911148706_2_alg».proof.Proof.Gen.Kernel.Launch
import proofs.«123711_j62886911148706_2_alg».proof.Proof.Gen.Kernel.Points
import proofs.«123711_j62886911148706_2_alg».proof.Proof.Gen.Kernel.Frame
import proofs.«123711_j62886911148706_2_alg».proof.Proof.Gen.KernelIdeal
import proofs.«123711_j62886911148706_2_alg».proof.Proof.Gen.KernelIdeal.Skeleton
import proofs.«123711_j62886911148706_2_alg».proof.Proof.Gen.KernelIdeal.Launch
import proofs.«123711_j62886911148706_2_alg».proof.Proof.Gen.KernelIdeal.Points
import proofs.«123711_j62886911148706_2_alg».proof.Proof.Gen.KernelIdeal.Frame
import proofs.«123711_j62886911148706_2_alg».proof.Proof.Gen.ReferenceIdeal
import proofs.«123711_j62886911148706_2_alg».proof.Proof.Gen.ReferenceIdeal.Run
import proofs.«123711_j62886911148706_2_alg».proof.Proof.Gen.ReferenceIdeal.Read
import proofs.«123711_j62886911148706_2_alg».proof.Proof.Gen.Pre_finite_inputs
import proofs.«123711_j62886911148706_2_alg».proof.Proof.Result
import proofs.«123711_j62886911148706_2_alg».proof.Proof.Ref
import Idealize.ShloMosaic.Adequacy
import Idealize.ShloMosaic.Init

noncomputable section

namespace Cert.Proof

open Idealize.ShloMosaic Idealize.ShloMosaic.TcCoe Idealize.SL.Sem Cert.Gated

/-- The kernel as printed runs, and its arguments end unchanged. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference runs, and its arguments end unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both programs end with the step's three arrays of the arguments. -/
theorem algebraic : Cert.algebraic_KernelIdeal_ReferenceIdeal := by
  intro m ρ m' ρ' _ hagree
  refine ⟨fun c => Gout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => Ghid (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => Gcell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.Result.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v18_eq, Cert.ReferenceIdeal.RefValue.out_eq, (hagree c).1, (hagree c).2.1,
      (hagree c).2.2.1, (hagree c).2.2.2.1, (hagree c).2.2.2.2.1, (hagree c).2.2.2.2.2]
  · rw [Cert.ReferenceIdeal.Read.val_main_v17_eq, Cert.ReferenceIdeal.RefValue.hid_eq, (hagree c).1, (hagree c).2.1,
      (hagree c).2.2.1, (hagree c).2.2.2.1, (hagree c).2.2.2.2.1]
  · rw [Cert.ReferenceIdeal.Read.val_main_v16_eq, Cert.ReferenceIdeal.RefValue.cell_eq, (hagree c).1, (hagree c).2.1,
      (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
